-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x2 : Shape := ⟨2, ![2000000, 2]⟩
abbrev S2x50 : Shape := ⟨2, ![2, 50]⟩
abbrev S50 : Shape := ⟨1, ![50]⟩
abbrev S50x50 : Shape := ⟨2, ![50, 50]⟩
abbrev S50x40 : Shape := ⟨2, ![50, 40]⟩
abbrev S40 : Shape := ⟨1, ![40]⟩
abbrev S40x1 : Shape := ⟨2, ![40, 1]⟩
abbrev S1 : Shape := ⟨1, ![1]⟩
abbrev S_ : Shape := ⟨0, ![]⟩

class Facts : Prop where
  bcast_S_S2000000x2 : S_.BroadcastsInDim S2000000x2 (![] : Fin 0 → Fin S2000000x2.rank)
  reducesTo_S2000000x2_S_d0_1 : S2000000x2.ReducesTo [0, 1] S_
  h_S_ : 0 < S_.numel
  bcast_S_S2x50 : S_.BroadcastsInDim S2x50 (![] : Fin 0 → Fin S2x50.rank)
  reducesTo_S2x50_S_d0_1 : S2x50.ReducesTo [0, 1] S_
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S50x40 : S_.BroadcastsInDim S50x40 (![] : Fin 0 → Fin S50x40.rank)
  reducesTo_S50x40_S_d0_1 : S50x40.ReducesTo [0, 1] S_
  bcast_S_S40 : S_.BroadcastsInDim S40 (![] : Fin 0 → Fin S40.rank)
  reducesTo_S40_S_d0 : S40.ReducesTo [0] S_
  bcast_S_S40x1 : S_.BroadcastsInDim S40x1 (![] : Fin 0 → Fin S40x1.rank)
  reducesTo_S40x1_S_d0_1 : S40x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S40 .f32) (main_arg15 : FVec F S40x1 .f32) (main_arg16 : FVec F S1 .f32) (main_arg17 : FVec F S1 .f32) (main_v63 : IVec S_ 1) (main_v67 : IVec S_ 1) : IVec S_ 1 :=
  let main_v68 : IVec S_ 1 := andi main_v63 main_v67
  let main_v69 : FVec F S40 .f32 := Host.absf main_arg14
  let main_cst_26 : FVec F S_ .f32 := constant S_ .f32 0x7F800000#32
  let main_v70 : FVec F S40 .f32 := broadcastInDim S40 ![] bcast_S_S40 main_cst_26
  let main_v71 : IVec S40 1 := cmpf .olt main_v69 main_v70
  let main_c_27 : IVec S_ 1 := constantI S_ 1 1#1
  let main_v72 : IVec S_ 1 := (fun x v => Host.reduce IntOp.andi x v reducesTo_S40_S_d0 h_S_) main_v71 main_c_27
  let main_v73 : IVec S_ 1 := andi main_v68 main_v72
  let main_v74 : FVec F S40x1 .f32 := Host.absf main_arg15
  let main_cst_28 : FVec F S_ .f32 := constant S_ .f32 0x7F800000#32
  let main_v75 : FVec F S40x1 .f32 := broadcastInDim S40x1 ![] bcast_S_S40x1 main_cst_28
  let main_v76 : IVec S40x1 1 := cmpf .olt main_v74 main_v75
  let main_c_29 : IVec S_ 1 := constantI S_ 1 1#1
  let main_v77 : IVec S_ 1 := (fun x v => Host.reduce IntOp.andi x v reducesTo_S40x1_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S50x50 .f32) (main_arg12 : FVec F S50 .f32) (main_arg13 : FVec F S50x40 .f32) (main_arg14 : FVec F S40 .f32) (main_arg15 : FVec F S40x1 .f32) (main_arg16 : FVec F S1 .f32) (main_arg17 : FVec F S1 .f32) (main_v48 : IVec S_ 1) (main_v49 : FVec F S50 .f32) (main_v50 : FVec F S50 .f32) : IVec S_ 1 :=
  let main_v51 : IVec S50 1 := cmpf .olt main_v49 main_v50
  let main_c_19 : IVec S_ 1 := constantI S_ 1 1#1
  let main_v52 : IVec S_ 1 := (fun x v => Host.reduce IntOp.andi x v reducesTo_S50_S_d0 h_S_) main_v51 main_c_19
  let main_v53 : IVec S_ 1 := andi main_v48 main_v52
  let main_v54 : FVec F S50x50 .f32 := Host.absf main_arg11
  let main_cst_20 : FVec F S_ .f32 := constant S_ .f32 0x7F800000#32
  let main_v55 : FVec F S50x50 .f32 := broadcastInDim S50x50 ![] bcast_S_S50x50 main_cst_20
  let main_v56 : IVec S50x50 1 := cmpf .olt main_v54 main_v55
  let main_c_21 : IVec S_ 1 := constantI S_ 1 1#1
  let main_v57 : IVec S_ 1 := (fun x v => Host.reduce IntOp.andi x v reducesTo_S50x50_S_d0_1 h_S_) main_v56 main_c_21
  let main_v58 : IVec S_ 1 := andi main_v53 main_v57
  let main_v59 : FVec F S50 .f32 := Host.absf main_arg12
  let main_cst_22 : FVec F S_ .f32 := constant S_ .f32 0x7F800000#32
  let main_v60 : FVec F S50 .f32 := broadcastInDim S50 ![] bcast_S_S50 main_cst_22
  let main_v61 : IVec S50 1 := cmpf .olt main_v59 main_v60
  let main_c_23 : IVec S_ 1 := constantI S_ 1 1#1
  let main_v62 : IVec S_ 1 := (fun x v => Host.reduce IntOp.andi x v reducesTo_S50_S_d0 h_S_) main_v61 main_c_23
  let main_v63 : IVec S_ 1 := andi main_v58 main_v62
  let main_v64 : FVec F S50x40 .f32 := Host.absf main_arg13
  let main_cst_24 : FVec F S_ .f32 := constant S_ .f32 0x7F800000#32
  let main_v65 : FVec F S50x40 .f32 := broadcastInDim S50x40 ![] bcast_S_S50x40 main_cst_24
  let main_v66 : IVec S50x40 1 := cmpf .olt main_v64 main_v65
  let main_c_25 : IVec S_ 1 := constantI S_ 1 1#1
  let main_v67 : IVec S_ 1 := (fun x v => Host.reduce IntOp.andi x v reducesTo_S50x40_S_d0_1 h_S_) main_v66 main_c_25
  fn_part4 (F := F) main_arg14 main_arg15 main_arg16 main_arg17 main_v63 main_v67

def fn_part2 {F : FTy → Type} [FloatOps F] (main_arg7 : FVec F S50x50 .f32) (main_arg8 : FVec F S50 .f32) (main_arg9 : FVec F S50x50 .f32) (main_arg10 : FVec F S50 .f32) (main_arg11 : FVec F S50x50 .f32) (main_arg12 : FVec F S50 .f32) (main_arg13 : FVec F S50x40 .f32) (main_arg14 : FVec F S40 .f32) (main_arg15 : FVec F S40x1 .f32) (main_arg16 : FVec F S1 .f32) (main_arg17 : FVec F S1 .f32) (main_v33 : IVec S_ 1) : IVec S_ 1 :=
  let main_v34 : FVec F S50x50 .f32 := Host.absf main_arg7
  let main_cst_12 : FVec F S_ .f32 := constant S_ .f32 0x7F800000#32
  let main_v35 : FVec F S50x50 .f32 := broadcastInDim S50x50 ![] bcast_S_S50x50 main_cst_12
  let main_v36 : IVec S50x50 1 := cmpf .olt main_v34 main_v35
  let main_c_13 : IVec S_ 1 := constantI S_ 1 1#1
  let main_v37 : IVec S_ 1 := (fun x v => Host.reduce IntOp.andi x v reducesTo_S50x50_S_d0_1 h_S_) main_v36 main_c_13
  let main_v38 : IVec S_ 1 := andi main_v33 main_v37
  let main_v39 : FVec F S50 .f32 := Host.absf main_arg8
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_v44 : FVec F S50x50 .f32 := Host.absf main_arg9
  let main_cst_16 : FVec F S_ .f32 := constant S_ .f32 0x7F800000#32
  let main_v45 : FVec F S50x50 .f32 := broadcastInDim S50x50 ![] bcast_S_S50x50 main_cst_16
  let main_v46 : IVec S50x50 1 := cmpf .olt main_v44 main_v45
  let main_c_17 : IVec S_ 1 := constantI S_ 1 1#1
  let main_v47 : IVec S_ 1 := (fun x v => Host.reduce IntOp.andi x v reducesTo_S50x50_S_d0_1 h_S_) main_v46 main_c_17
  let main_v48 : IVec S_ 1 := andi main_v43 main_v47
  let main_v49 : FVec F S50 .f32 := Host.absf main_arg10
  let main_cst_18 : FVec F S_ .f32 := constant S_ .f32 0x7F800000#32
  let main_v50 : FVec F S50 .f32 := broadcastInDim S50 ![] bcast_S_S50 main_cst_18
  fn_part3 (F := F) main_arg11 main_arg12 main_arg13 main_arg14 main_arg15 main_arg16 main_arg17 main_v48 main_v49 main_v50

def fn_part1 {F : FTy → Type} [FloatOps F] (main_arg4 : FVec F S50 .f32) (main_arg5 : FVec F S50x50 .f32) (main_arg6 : FVec F S50 .f32) (main_arg7 : FVec F S50x50 .f32) (main_arg8 : FVec F S50 .f32) (main_arg9 : FVec F S50x50 .f32) (main_arg10 : FVec F S50 .f32) (main_arg11 : FVec F S50x50 .f32) (main_arg12 : FVec F S50 .f32) (main_arg13 : FVec F S50x40 .f32) (main_arg14 : FVec F S40 .f32) (main_arg15 : FVec F S40x1 .f32) (main_arg16 : FVec F S1 .f32) (main_arg17 : FVec F S1 .f32) (main_v13 : IVec S_ 1) (main_v16 : IVec S50x50 1) : IVec S_ 1 :=
  let main_c_5 : IVec S_ 1 := constantI S_ 1 1#1
  let main_v17 : IVec S_ 1 := (fun x v => Host.reduce IntOp.andi x v reducesTo_S50x50_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x50 .f32 := Host.absf main_arg5
  let main_cst_8 : FVec F S_ .f32 := constant S_ .f32 0x7F800000#32
  let main_v25 : FVec F S50x50 .f32 := broadcastInDim S50x50 ![] bcast_S_S50x50 main_cst_8
  let main_v26 : IVec S50x50 1 := cmpf .olt main_v24 main_v25
  let main_c_9 : IVec S_ 1 := constantI S_ 1 1#1
  let main_v27 : IVec S_ 1 := (fun x v => Host.reduce IntOp.andi x v reducesTo_S50x50_S_d0_1 h_S_) main_v26 main_c_9
  let main_v28 : IVec S_ 1 := andi main_v23 main_v27
  let main_v29 : FVec F S50 .f32 := Host.absf main_arg6
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S2000000x2 .f32) (main_arg1 : FVec F S2x50 .f32) (main_arg2 : FVec F S50 .f32) (main_arg3 : FVec F S50x50 .f32) (main_arg4 : FVec F S50 .f32) (main_arg5 : FVec F S50x50 .f32) (main_arg6 : FVec F S50 .f32) (main_arg7 : FVec F S50x50 .f32) (main_arg8 : FVec F S50 .f32) (main_arg9 : FVec F S50x50 .f32) (main_arg10 : FVec F S50 .f32) (main_arg11 : FVec F S50x50 .f32) (main_arg12 : FVec F S50 .f32) (main_arg13 : FVec F S50x40 .f32) (main_arg14 : FVec F S40 .f32) (main_arg15 : FVec F S40x1 .f32) (main_arg16 : FVec F S1 .f32) (main_arg17 : FVec F S1 .f32) : IVec S_ 1 :=
  let main_v0 : FVec F S2000000x2 .f32 := Host.absf main_arg0
  let main_cst : FVec F S_ .f32 := constant S_ .f32 0x7F800000#32
  let main_v1 : FVec F S2000000x2 .f32 := broadcastInDim S2000000x2 ![] bcast_S_S2000000x2 main_cst
  let main_v2 : IVec S2000000x2 1 := cmpf .olt main_v0 main_v1
  let main_c : IVec S_ 1 := constantI S_ 1 1#1
  let main_v3 : IVec S_ 1 := (fun x v => Host.reduce IntOp.andi x v reducesTo_S2000000x2_S_d0_1 h_S_) main_v2 main_c
  let main_v4 : FVec F S2x50 .f32 := Host.absf main_arg1
  let main_cst_0 : FVec F S_ .f32 := constant S_ .f32 0x7F800000#32
  let main_v5 : FVec F S2x50 .f32 := broadcastInDim S2x50 ![] bcast_S_S2x50 main_cst_0
  let main_v6 : IVec S2x50 1 := cmpf .olt main_v4 main_v5
  let main_c_1 : IVec S_ 1 := constantI S_ 1 1#1
  let main_v7 : IVec S_ 1 := (fun x v => Host.reduce IntOp.andi x v reducesTo_S2x50_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x50 .f32 := Host.absf main_arg3
  let main_cst_4 : FVec F S_ .f32 := constant S_ .f32 0x7F800000#32
  let main_v15 : FVec F S50x50 .f32 := broadcastInDim S50x50 ![] bcast_S_S50x50 main_cst_4
  let main_v16 : IVec S50x50 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S2000000x2 : Shape := ⟨2, ![2000000, 2]⟩
abbrev S2x50 : Shape := ⟨2, ![2, 50]⟩
abbrev S50 : Shape := ⟨1, ![50]⟩
abbrev S50x50 : Shape := ⟨2, ![50, 50]⟩
abbrev S50x40 : Shape := ⟨2, ![50, 40]⟩
abbrev S40 : Shape := ⟨1, ![40]⟩
abbrev S40x1 : Shape := ⟨2, ![40, 1]⟩
abbrev S1 : Shape := ⟨1, ![1]⟩
abbrev S2x2000000 : Shape := ⟨2, ![2, 2000000]⟩
abbrev S50x2 : Shape := ⟨2, ![50, 2]⟩
abbrev S40x50 : Shape := ⟨2, ![40, 50]⟩
abbrev S1x40 : Shape := ⟨2, ![1, 40]⟩
abbrev S50x1 : Shape := ⟨2, ![50, 1]⟩
abbrev S1x1 : Shape := ⟨2, ![1, 1]⟩
abbrev S1x2000000 : Shape := ⟨2, ![1, 2000000]⟩
abbrev S2x16000 : Shape := ⟨2, ![2, 16000]⟩
abbrev S1x16000 : Shape := ⟨2, ![1, 16000]⟩
abbrev S50x16000 : Shape := ⟨2, ![50, 16000]⟩
abbrev S40x16000 : Shape := ⟨2, ![40, 16000]⟩
abbrev S2000000x1 : Shape := ⟨2, ![2000000, 1]⟩

abbrev nBuf : Space → Nat
  | .hbm => 38
  | .vmem => 21
  | .smem => 0
  | _ => 0

abbrev bufTy : (tb : Table) → Fin (tcTables nBuf tb) → BufTy
  | .hbm, ⟨0, _⟩ => ⟨S2000000x2, .f32⟩
  | .hbm, ⟨1, _⟩ => ⟨S2x50, .f32⟩
  | .hbm, ⟨2, _⟩ => ⟨S50, .f32⟩
  | .hbm, ⟨3, _⟩ => ⟨S50x50, .f32⟩
  | .hbm, ⟨4, _⟩ => ⟨S50, .f32⟩
  | .hbm, ⟨5, _⟩ => ⟨S50x50, .f32⟩
  | .hbm, ⟨6, _⟩ => ⟨S50, .f32⟩
  | .hbm, ⟨7, _⟩ => ⟨S50x50, .f32⟩
  | .hbm, ⟨8, _⟩ => ⟨S50, .f32⟩
  | .hbm, ⟨9, _⟩ => ⟨S50x50, .f32⟩
  | .hbm, ⟨10, _⟩ => ⟨S50, .f32⟩
  | .hbm, ⟨11, _⟩ => ⟨S50x50, .f32⟩
  | .hbm, ⟨12, _⟩ => ⟨S50, .f32⟩
  | .hbm, ⟨13, _⟩ => ⟨S50x40, .f32⟩
  | .hbm, ⟨14, _⟩ => ⟨S40, .f32⟩
  | .hbm, ⟨15, _⟩ => ⟨S40x1, .f32⟩
  | .hbm, ⟨16, _⟩ => ⟨S1, .f32⟩
  | .hbm, ⟨17, _⟩ => ⟨S1, .f32⟩
  | .hbm, ⟨18, _⟩ => ⟨S2x2000000, .f32⟩
  | .hbm, ⟨19, _⟩ => ⟨S50x2, .f32⟩
  | .hbm, ⟨20, _⟩ => ⟨S50x50, .f32⟩
  | .hbm, ⟨21, _⟩ => ⟨S50x50, .f32⟩
  | .hbm, ⟨22, _⟩ => ⟨S50x50, .f32⟩
  | .hbm, ⟨23, _⟩ => ⟨S50x50, .f32⟩
  | .hbm, ⟨24, _⟩ => ⟨S50x50, .f32⟩
  | .hbm, ⟨25, _⟩ => ⟨S40x50, .f32⟩
  | .hbm, ⟨26, _⟩ => ⟨S1x40, .f32⟩
  | .hbm, ⟨27, _⟩ => ⟨S50x1, .f32⟩
  | .hbm, ⟨28, _⟩ => ⟨S50x1, .f32⟩
  | .hbm, ⟨29, _⟩ => ⟨S50x1, .f32⟩
  | .hbm, ⟨30, _⟩ => ⟨S50x1, .f32⟩
  | .hbm, ⟨31, _⟩ => ⟨S50x1, .f32⟩
  | .hbm, ⟨32, _⟩ => ⟨S50x1, .f32⟩
  | .hbm, ⟨33, _⟩ => ⟨S40x1, .f32⟩
  | .hbm, ⟨34, _⟩ => ⟨S1x1, .f32⟩
  | .hbm, ⟨35, _⟩ => ⟨S1x1, .f32⟩
  | .hbm, ⟨36, _⟩ => ⟨S1x2000000, .f32⟩
  | .hbm, ⟨37, _⟩ => ⟨S2000000x1, .f32⟩
  | .local _ .vmem, ⟨0, _⟩ => ⟨S2x16000, .f32⟩
  | .local _ .vmem, ⟨1, _⟩ => ⟨S2x16000, .f32⟩
  | .local _ .vmem, ⟨2, _⟩ => ⟨S50x2, .f32⟩
  | .local _ .vmem, ⟨3, _⟩ => ⟨S50x1, .f32⟩
  | .local _ .vmem, ⟨4, _⟩ => ⟨S50x50, .f32⟩
  | .local _ .vmem, ⟨5, _⟩ => ⟨S50x1, .f32⟩
  | .local _ .vmem, ⟨6, _⟩ => ⟨S50x50, .f32⟩
  | .local _ .vmem, ⟨7, _⟩ => ⟨S50x1, .f32⟩
  | .local _ .vmem, ⟨8, _⟩ => ⟨S50x50, .f32⟩
  | .local _ .vmem, ⟨9, _⟩ => ⟨S50x1, .f32⟩
  | .local _ .vmem, ⟨10, _⟩ => ⟨S50x50, .f32⟩
  | .local _ .vmem, ⟨11, _⟩ => ⟨S50x1, .f32⟩
  | .local _ .vmem, ⟨12, _⟩ => ⟨S50x50, .f32⟩
  | .local _ .vmem, ⟨13, _⟩ => ⟨S50x1, .f32⟩
  | .local _ .vmem, ⟨14, _⟩ => ⟨S40x50, .f32⟩
  | .local _ .vmem, ⟨15, _⟩ => ⟨S40x1, .f32⟩
  | .local _ .vmem, ⟨16, _⟩ => ⟨S1x40, .f32⟩
  | .local _ .vmem, ⟨17, _⟩ => ⟨S1x1, .f32⟩
  | .local _ .vmem, ⟨18, _⟩ => ⟨S1x1, .f32⟩
  | .local _ .vmem, ⟨19, _⟩ => ⟨S1x16000, .f32⟩
  | .local _ .vmem, ⟨20, _⟩ => ⟨S1x16000, .f32⟩
  | _, _ => ⟨S2000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S50x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S50x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S50x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S50x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S50x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S40x50 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S40x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x40 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x16000 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  transposes_S2000000x2_S2x2000000_1_0 : S2000000x2.Transposes [1, 0] S2x2000000
  transposes_S2x50_S50x2_1_0 : S2x50.Transposes [1, 0] S50x2
  transposes_S50x50_S50x50_1_0 : S50x50.Transposes [1, 0] S50x50
  transposes_S50x40_S40x50_1_0 : S50x40.Transposes [1, 0] S40x50
  transposes_S40x1_S1x40_1_0 : S40x1.Transposes [1, 0] S1x40
  shapeCasts_S50_S50x1 : S50.ShapeCasts S50x1
  shapeCasts_S40_S40x1 : S40.ShapeCasts S40x1
  shapeCasts_S1_S1x1 : S1.ShapeCasts S1x1
  inb_S2x16000_S2x16000_0_0 : ∀ a, (![0, 0] : Fin 2 → Nat) a + S2x16000.size a ≤ S2x16000.size a
  h_S2x16000 : 0 < S2x16000.numel
  shapeCasts_S2x16000_S2x16000 : S2x16000.ShapeCasts S2x16000
  bitsLt_bf16_f32 : FTy.bits .bf16 < FTy.bits .f32
  inb_S50x2_S50x2_0_0 : ∀ a, (![0, 0] : Fin 2 → Nat) a + S50x2.size a ≤ S50x2.size a
  h_S50x2 : 0 < S50x2.numel
  shapeCasts_S50x2_S50x2 : S50x2.ShapeCasts S50x2
  inb_S50x1_S50x1_0_0 : ∀ a, (![0, 0] : Fin 2 → Nat) a + S50x1.size a ≤ S50x1.size a
  h_S50x1 : 0 < S50x1.numel
  shapeCasts_S50x1_S50x1 : S50x1.ShapeCasts S50x1
  broadcasts_S50x1_S50x16000 : S50x1.Broadcasts S50x16000
  inb_S50x50_S50x50_0_0 : ∀ a, (![0, 0] : Fin 2 → Nat) a + S50x50.size a ≤ S50x50.size a
  h_S50x50 : 0 < S50x50.numel
  shapeCasts_S50x50_S50x50 : S50x50.ShapeCasts S50x50
  inb_S40x50_S40x50_0_0 : ∀ a, (![0, 0] : Fin 2 → Nat) a + S40x50.size a ≤ S40x50.size a
  h_S40x50 : 0 < S40x50.numel
  shapeCasts_S40x50_S40x50 : S40x50.ShapeCasts S40x50
  inb_S40x1_S40x1_0_0 : ∀ a, (![0, 0] : Fin 2 → Nat) a + S40x1.size a ≤ S40x1.size a
  h_S40x1 : 0 < S40x1.numel
  shapeCasts_S40x1_S40x1 : S40x1.ShapeCasts S40x1
  broadcasts_S40x1_S40x16000 : S40x1.Broadcasts S40x16000
  inb_S1x40_S1x40_0_0 : ∀ a, (![0, 0] : Fin 2 → Nat) a + S1x40.size a ≤ S1x40.size a
  h_S1x40 : 0 < S1x40.numel
  shapeCasts_S1x40_S1x40 : S1x40.ShapeCasts S1x40
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16000 : S1x1.Broadcasts S1x16000
  inb_S1x16000_S1x16000_0_0 : ∀ a, (![0, 0] : Fin 2 → Nat) a + S1x16000.size a ≤ S1x16000.size a
  h_S1x16000 : 0 < S1x16000.numel
  shapeCasts_S1x2000000_S2000000x1 : S1x2000000.ShapeCasts S2000000x1
  dot_S50x2_S2x16000_S50x16000_1_0_0_1_n_n_wf : DotDims.WF S50x2 S2x16000 S50x16000 [1] [0] [0] [1] [] []
  dot_S50x50_S50x16000_S50x16000_1_0_0_1_n_n_wf : DotDims.WF S50x50 S50x16000 S50x16000 [1] [0] [0] [1] [] []
  dot_S40x50_S50x16000_S40x16000_1_0_0_1_n_n_wf : DotDims.WF S40x50 S50x16000 S40x16000 [1] [0] [0] [1] [] []
  dot_S1x40_S40x16000_S1x16000_1_0_0_1_n_n_wf : DotDims.WF S1x40 S40x16000 S1x16000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16000.size a ≤ S2x2000000.size a
  hwx0_0 : ∀ i : grid0.Coords, EltTy.bits .f32 = 32 ∨ (Rect.block (s := S2x2000000) S2x16000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x2.size a ≤ S50x2.size a
  hwx0_1 : ∀ i : grid0.Coords, EltTy.bits .f32 = 32 ∨ (Rect.block (s := S50x2) S50x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x1.size a ≤ S50x1.size a
  hwx0_2 : ∀ i : grid0.Coords, EltTy.bits .f32 = 32 ∨ (Rect.block (s := S50x1) S50x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x50.size a ≤ S50x50.size a
  hwx0_3 : ∀ i : grid0.Coords, EltTy.bits .f32 = 32 ∨ (Rect.block (s := S50x50) S50x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x1.size a ≤ S50x1.size a
  hwx0_4 : ∀ i : grid0.Coords, EltTy.bits .f32 = 32 ∨ (Rect.block (s := S50x1) S50x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x50.size a ≤ S50x50.size a
  hwx0_5 : ∀ i : grid0.Coords, EltTy.bits .f32 = 32 ∨ (Rect.block (s := S50x50) S50x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S50x1.size a ≤ S50x1.size a
  hwx0_6 : ∀ i : grid0.Coords, EltTy.bits .f32 = 32 ∨ (Rect.block (s := S50x1) S50x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x50.size a ≤ S50x50.size a
  hwx0_7 : ∀ i : grid0.Coords, EltTy.bits .f32 = 32 ∨ (Rect.block (s := S50x50) S50x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S50x1.size a ≤ S50x1.size a
  hwx0_8 : ∀ i : grid0.Coords, EltTy.bits .f32 = 32 ∨ (Rect.block (s := S50x1) S50x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S50x50.size a ≤ S50x50.size a
  hwx0_9 : ∀ i : grid0.Coords, EltTy.bits .f32 = 32 ∨ (Rect.block (s := S50x50) S50x50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S50x1.size a ≤ S50x1.size a
  hwx0_10 : ∀ i : grid0.Coords, EltTy.bits .f32 = 32 ∨ (Rect.block (s := S50x1) S50x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S50x50.size a ≤ S50x50.size a
  hwx0_11 : ∀ i : grid0.Coords, EltTy.bits .f32 = 32 ∨ (Rect.block (s := S50x50) S50x50.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S50x1.size a ≤ S50x1.size a
  hwx0_12 : ∀ i : grid0.Coords, EltTy.bits .f32 = 32 ∨ (Rect.block (s := S50x1) S50x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S40x50.size a ≤ S40x50.size a
  hwx0_13 : ∀ i : grid0.Coords, EltTy.bits .f32 = 32 ∨ (Rect.block (s := S40x50) S40x50.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S40x1.size a ≤ S40x1.size a
  hwx0_14 : ∀ i : grid0.Coords, EltTy.bits .f32 = 32 ∨ (Rect.block (s := S40x1) S40x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x40.size a ≤ S1x40.size a
  hwx0_15 : ∀ i : grid0.Coords, EltTy.bits .f32 = 32 ∨ (Rect.block (s := S1x40) S1x40.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x16000.size a ≤ S1x2000000.size a
  hwx0_18 : ∀ i : grid0.Coords, EltTy.bits .f32 = 32 ∨ (Rect.block (s := S1x2000000) S1x16000.size (cc0_transform_18 i) (hinb0_18 i)).WholeWords (EltTy.packing .f32)

variable [Facts₀]

def dot_S50x2_S2x16000_S50x16000_1_0_0_1_n_n : DotDims S50x2 S2x16000 S50x16000 where
  lhsContracting := [1]
  rhsContracting := [0]
  lhsNonContracting := [0]
  rhsNonContracting := [1]
  lhsBatch := []
  rhsBatch := []
  wf := dot_S50x2_S2x16000_S50x16000_1_0_0_1_n_n_wf
def dot_S50x50_S50x16000_S50x16000_1_0_0_1_n_n : DotDims S50x50 S50x16000 S50x16000 where
  lhsContracting := [1]
  rhsContracting := [0]
  lhsNonContracting := [0]
  rhsNonContracting := [1]
  lhsBatch := []
  rhsBatch := []
  wf := dot_S50x50_S50x16000_S50x16000_1_0_0_1_n_n_wf
def dot_S40x50_S50x16000_S40x16000_1_0_0_1_n_n : DotDims S40x50 S50x16000 S40x16000 where
  lhsContracting := [1]
  rhsContracting := [0]
  lhsNonContracting := [0]
  rhsNonContracting := [1]
  lhsBatch := []
  rhsBatch := []
  wf := dot_S40x50_S50x16000_S40x16000_1_0_0_1_n_n_wf
def dot_S1x40_S40x16000_S1x16000_1_0_0_1_n_n : DotDims S1x40 S40x16000 S1x16000 where
  lhsContracting := [1]
  rhsContracting := [0]
  lhsNonContracting := [0]
  rhsNonContracting := [1]
  lhsBatch := []
  rhsBatch := []
  wf := dot_S1x40_S40x16000_S1x16000_1_0_0_1_n_n_wf

abbrev win0_0 : Pipeline.Window sig grid0 :=
  Pipeline.Window.ofSpec (Memref.whole main_v0) S2x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S50x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S50x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S50x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S50x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S50x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S50x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S50x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S50x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S50x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S50x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S50x50.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S50x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S40x50.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S40x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1x40.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S1x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v18) S1x16000.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S2000000x2 : Shape := ⟨2, ![2000000, 2]⟩
abbrev S2x50 : Shape := ⟨2, ![2, 50]⟩
abbrev S50 : Shape := ⟨1, ![50]⟩
abbrev S50x50 : Shape := ⟨2, ![50, 50]⟩
abbrev S50x40 : Shape := ⟨2, ![50, 40]⟩
abbrev S40 : Shape := ⟨1, ![40]⟩
abbrev S40x1 : Shape := ⟨2, ![40, 1]⟩
abbrev S1 : Shape := ⟨1, ![1]⟩
abbrev S2000000x50 : Shape := ⟨2, ![2000000, 50]⟩
abbrev S1x50 : Shape := ⟨2, ![1, 50]⟩
abbrev S2000000x40 : Shape := ⟨2, ![2000000, 40]⟩
abbrev S1x40 : Shape := ⟨2, ![1, 40]⟩
abbrev S2000000x1 : Shape := ⟨2, ![2000000, 1]⟩
abbrev S1x1 : Shape := ⟨2, ![1, 1]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S2000000x2, .f32⟩
  | .hbm, ⟨1, _⟩ => ⟨S2x50, .f32⟩
  | .hbm, ⟨2, _⟩ => ⟨S50, .f32⟩
  | .hbm, ⟨3, _⟩ => ⟨S50x50, .f32⟩
  | .hbm, ⟨4, _⟩ => ⟨S50, .f32⟩
  | .hbm, ⟨5, _⟩ => ⟨S50x50, .f32⟩
  | .hbm, ⟨6, _⟩ => ⟨S50, .f32⟩
  | .hbm, ⟨7, _⟩ => ⟨S50x50, .f32⟩
  | .hbm, ⟨8, _⟩ => ⟨S50, .f32⟩
  | .hbm, ⟨9, _⟩ => ⟨S50x50, .f32⟩
  | .hbm, ⟨10, _⟩ => ⟨S50, .f32⟩
  | .hbm, ⟨11, _⟩ => ⟨S50x50, .f32⟩
  | .hbm, ⟨12, _⟩ => ⟨S50, .f32⟩
  | .hbm, ⟨13, _⟩ => ⟨S50x40, .f32⟩
  | .hbm, ⟨14, _⟩ => ⟨S40, .f32⟩
  | .hbm, ⟨15, _⟩ => ⟨S40x1, .f32⟩
  | .hbm, ⟨16, _⟩ => ⟨S1, .f32⟩
  | .hbm, ⟨17, _⟩ => ⟨S1, .f32⟩
  | .hbm, ⟨18, _⟩ => ⟨S2000000x50, .f32⟩
  | .hbm, ⟨19, _⟩ => ⟨S1x50, .f32⟩
  | .hbm, ⟨20, _⟩ => ⟨S2000000x50, .f32⟩
  | .hbm, ⟨21, _⟩ => ⟨S2000000x50, .f32⟩
  | .hbm, ⟨22, _⟩ => ⟨S2000000x50, .f32⟩
  | .hbm, ⟨23, _⟩ => ⟨S2000000x50, .f32⟩
  | .hbm, ⟨24, _⟩ => ⟨S1x50, .f32⟩
  | .hbm, ⟨25, _⟩ => ⟨S2000000x50, .f32⟩
  | .hbm, ⟨26, _⟩ => ⟨S2000000x50, .f32⟩
  | .hbm, ⟨27, _⟩ => ⟨S2000000x50, .f32⟩
  | .hbm, ⟨28, _⟩ => ⟨S2000000x50, .f32⟩
  | .hbm, ⟨29, _⟩ => ⟨S1x50, .f32⟩
  | .hbm, ⟨30, _⟩ => ⟨S2000000x50, .f32⟩
  | .hbm, ⟨31, _⟩ => ⟨S2000000x50, .f32⟩
  | .hbm, ⟨32, _⟩ => ⟨S2000000x50, .f32⟩
  | .hbm, ⟨33, _⟩ => ⟨S2000000x50, .f32⟩
  | .hbm, ⟨34, _⟩ => ⟨S1x50, .f32⟩
  | .hbm, ⟨35, _⟩ => ⟨S2000000x50, .f32⟩
  | .hbm, ⟨36, _⟩ => ⟨S2000000x50, .f32⟩
  | .hbm, ⟨37, _⟩ => ⟨S2000000x50, .f32⟩
  | .hbm, ⟨38, _⟩ => ⟨S2000000x50, .f32⟩
  | .hbm, ⟨39, _⟩ => ⟨S1x50, .f32⟩
  | .hbm, ⟨40, _⟩ => ⟨S2000000x50, .f32⟩
  | .hbm, ⟨41, _⟩ => ⟨S2000000x50, .f32⟩
  | .hbm, ⟨42, _⟩ => ⟨S2000000x50, .f32⟩
  | .hbm, ⟨43, _⟩ => ⟨S2000000x50, .f32⟩
  | .hbm, ⟨44, _⟩ => ⟨S1x50, .f32⟩
  | .hbm, ⟨45, _⟩ => ⟨S2000000x50, .f32⟩
  | .hbm, ⟨46, _⟩ => ⟨S2000000x50, .f32⟩
  | .hbm, ⟨47, _⟩ => ⟨S2000000x50, .f32⟩
  | .hbm, ⟨48, _⟩ => ⟨S2000000x40, .f32⟩
  | .hbm, ⟨49, _⟩ => ⟨S1x40, .f32⟩
  | .hbm, ⟨50, _⟩ => ⟨S2000000x40, .f32⟩
  | .hbm, ⟨51, _⟩ => ⟨S2000000x40, .f32⟩
  | .hbm, ⟨52, _⟩ => ⟨S2000000x40, .f32⟩
  | .hbm, ⟨53, _⟩ => ⟨S2000000x1, .f32⟩
  | .hbm, ⟨54, _⟩ => ⟨S1x1, .f32⟩
  | .hbm, ⟨55, _⟩ => ⟨S2000000x1, .f32⟩
  | .hbm, ⟨56, _⟩ => ⟨S2000000x1, .f32⟩
  | .hbm, ⟨57, _⟩ => ⟨S2000000x1, .f32⟩
  | .hbm, ⟨58, _⟩ => ⟨S2000000x1, .f32⟩
  | .hbm, ⟨59, _⟩ => ⟨S_, .f32⟩
  | .hbm, ⟨60, _⟩ => ⟨S2000000x1, .f32⟩
  | .hbm, ⟨61, _⟩ => ⟨S2000000x1, .f32⟩
  | .hbm, ⟨62, _⟩ => ⟨S_, .f32⟩
  | .hbm, ⟨63, _⟩ => ⟨S2000000x1, .f32⟩
  | .hbm, ⟨64, _⟩ => ⟨S2000000x1, .f32⟩
  | .hbm, ⟨65, _⟩ => ⟨S1x1, .f32⟩
  | .hbm, ⟨66, _⟩ => ⟨S2000000x1, .f32⟩
  | .hbm, ⟨67, _⟩ => ⟨S2000000x1, .f32⟩
  | _, _ => ⟨S2000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_v42 : Ref sig .tc := ⟨.hbm, 61, rfl⟩
abbrev main_cst_0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S1x50_S2000000x50_0_1 : S1x50.BroadcastsInDim S2000000x50 (![0, 1] : Fin 2 → Fin S2000000x50.rank)
  bcast_S40_S1x40_1 : S40.BroadcastsInDim S1x40 (![1] : Fin 1 → Fin S1x40.rank)
  bcast_S1x40_S2000000x40_0_1 : S1x40.BroadcastsInDim S2000000x40 (![0, 1] : Fin 2 → Fin S2000000x40.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  dot_S2000000x2_S2x50_S2000000x50_1_0_0_1_n_n_wf : DotDims.WF S2000000x2 S2x50 S2000000x50 [1] [0] [0] [1] [] []
  dot_S2000000x50_S50x50_S2000000x50_1_0_0_1_n_n_wf : DotDims.WF S2000000x50 S50x50 S2000000x50 [1] [0] [0] [1] [] []
  dot_S2000000x50_S50x40_S2000000x40_1_0_0_1_n_n_wf : DotDims.WF S2000000x50 S50x40 S2000000x40 [1] [0] [0] [1] [] []
  dot_S2000000x40_S40x1_S2000000x1_1_0_0_1_n_n_wf : DotDims.WF S2000000x40 S40x1 S2000000x1 [1] [0] [0] [1] [] []

variable [Facts₀]

def dot_S2000000x2_S2x50_S2000000x50_1_0_0_1_n_n : DotDims S2000000x2 S2x50 S2000000x50 where
  lhsContracting := [1]
  rhsContracting := [0]
  lhsNonContracting := [0]
  rhsNonContracting := [1]
  lhsBatch := []
  rhsBatch := []
  wf := dot_S2000000x2_S2x50_S2000000x50_1_0_0_1_n_n_wf
def dot_S2000000x50_S50x50_S2000000x50_1_0_0_1_n_n : DotDims S2000000x50 S50x50 S2000000x50 where
  lhsContracting := [1]
  rhsContracting := [0]
  lhsNonContracting := [0]
  rhsNonContracting := [1]
  lhsBatch := []
  rhsBatch := []
  wf := dot_S2000000x50_S50x50_S2000000x50_1_0_0_1_n_n_wf
def dot_S2000000x50_S50x40_S2000000x40_1_0_0_1_n_n : DotDims S2000000x50 S50x40 S2000000x40 where
  lhsContracting := [1]
  rhsContracting := [0]
  lhsNonContracting := [0]
  rhsNonContracting := [1]
  lhsBatch := []
  rhsBatch := []
  wf := dot_S2000000x50_S50x40_S2000000x40_1_0_0_1_n_n_wf
def dot_S2000000x40_S40x1_S2000000x1_1_0_0_1_n_n : DotDims S2000000x40 S40x1 S2000000x1 where
  lhsContracting := [1]
  rhsContracting := [0]
  lhsNonContracting := [0]
  rhsNonContracting := [1]
  lhsBatch := []
  rhsBatch := []
  wf := dot_S2000000x40_S40x1_S2000000x1_1_0_0_1_n_n_wf

class Facts : Prop extends Facts₀ where

variable [Facts]
-- ==== Proof.Spec.lean ====
/-
  The network both programs compute, as one function on the extended reals.

  A dense layer sends a vector h to act (Σ_k h_k · W_{k,j} + b_j). The network is seven such layers with the
  hyperbolic tangent, an eighth with the logistic function onto a single output, and a final scaling. `net` is the
  network on one input row; `G` is the whole result array: row n of the output is `net` of row n of the input.
  A product whose factors are written in the other order (weights first) is the same layer, since multiplication
  on the extended reals is commutative.
-/
import Idealize.ShloMosaic.PureOps.Ideal
import Idealize.ShloMosaic.Lib.ValueIdx

noncomputable section

namespace Cert.Mlp

open Idealize.ShloMosaic Idealize.ShloMosaic.ValueIdx

/-- One dense layer: entry `j` of the output is `act (Σ k, h k * W k j + b j)`. -/
def dense {K J : Type} [Fintype K] (act : EReal → EReal) (h : K → EReal) (W : K → J → EReal) (b : J → EReal) (j : J) : EReal :=
  act (∑ k, h k * W k j + b j)

/-- The same layer with each product written weight first. -/
theorem dense_comm {K J : Type} [Fintype K] (act : EReal → EReal) (h : K → EReal) (W : K → J → EReal) (b : J → EReal) (j : J) :
    act (∑ k, W k j * h k + b j) = dense act h W b j := by
  unfold dense
  congr 2
  exact Finset.sum_congr rfl fun k _ => mul_comm _ _

/-- Two layers agree when their inputs, weights and biases agree entry by entry. -/
theorem dense_congr {K J : Type} [Fintype K] (act : EReal → EReal) {h h' : K → EReal} {W W' : K → J → EReal} {b b' : J → EReal}
    (hh : ∀ k, h k = h' k) (hW : ∀ k j, W k j = W' k j) (hb : ∀ j, b j = b' j) (j : J) :
    dense act h W b j = dense act h' W' b' j := by
  unfold dense
  rw [hb j]
  congr 2
  exact Finset.sum_congr rfl fun k _ => by rw [hh k, hW k j]

/-- The network on one input row `x`: seven tanh layers (2 → 50 → 50 → 50 → 50 → 50 → 50 → 40), a logistic layer onto one
    output, and the scaling by `s`. -/
def net (x : Fin 2 → EReal)
    (W1 : Fin 2 → Fin 50 → EReal) (b1 : Fin 50 → EReal) (W2 : Fin 50 → Fin 50 → EReal) (b2 : Fin 50 → EReal)
    (W3 : Fin 50 → Fin 50 → EReal) (b3 : Fin 50 → EReal) (W4 : Fin 50 → Fin 50 → EReal) (b4 : Fin 50 → EReal)
    (W5 : Fin 50 → Fin 50 → EReal) (b5 : Fin 50 → EReal) (W6 : Fin 50 → Fin 50 → EReal) (b6 : Fin 50 → EReal)
    (W7 : Fin 50 → Fin 40 → EReal) (b7 : Fin 40 → EReal) (W8 : Fin 40 → Fin 1 → EReal) (b8 : Fin 1 → EReal) (s : EReal) : EReal :=
  s * dense Ideal.logistic (dense Ideal.tanh (dense Ideal.tanh (dense Ideal.tanh (dense Ideal.tanh (dense Ideal.tanh
    (dense Ideal.tanh (dense Ideal.tanh x W1 b1) W2 b2) W3 b3) W4 b4) W5 b5) W6 b6) W7 b7) W8 b8 0

/-- The result array: row `n` is the network on row `n` of `x`, with the weights `W_l[k, j]`, the biases `b_l[j]`
    and the scale `scale[0]`. -/
def G (x : FVec Ideal ⟨2, ![2000000, 2]⟩ .f32)
    (W1 : FVec Ideal ⟨2, ![2, 50]⟩ .f32) (b1 : FVec Ideal ⟨1, ![50]⟩ .f32)
    (W2 : FVec Ideal ⟨2, ![50, 50]⟩ .f32) (b2 : FVec Ideal ⟨1, ![50]⟩ .f32)
    (W3 : FVec Ideal ⟨2, ![50, 50]⟩ .f32) (b3 : FVec Ideal ⟨1, ![50]⟩ .f32)
    (W4 : FVec Ideal ⟨2, ![50, 50]⟩ .f32) (b4 : FVec Ideal ⟨1, ![50]⟩ .f32)
    (W5 : FVec Ideal ⟨2, ![50, 50]⟩ .f32) (b5 : FVec Ideal ⟨1, ![50]⟩ .f32)
    (W6 : FVec Ideal ⟨2, ![50, 50]⟩ .f32) (b6 : FVec Ideal ⟨1, ![50]⟩ .f32)
    (W7 : FVec Ideal ⟨2, ![50, 40]⟩ .f32) (b7 : FVec Ideal ⟨1, ![40]⟩ .f32)
    (W8 : FVec Ideal ⟨2, ![40, 1]⟩ .f32) (b8 : FVec Ideal ⟨1, ![1]⟩ .f32)
    (scale : FVec Ideal ⟨1, ![1]⟩ .f32) : FVec Ideal ⟨2, ![2000000, 1]⟩ .f32 :=
  fun i => net (fun k => x (ix2 (i 0) k))
    (fun k j => W1 (ix2 k j)) (fun j => b1 (ix1 j)) (fun k j => W2 (ix2 k j)) (fun j => b2 (ix1 j))
    (fun k j => W3 (ix2 k j)) (fun j => b3 (ix1 j)) (fun k j => W4 (ix2 k j)) (fun j => b4 (ix1 j))
    (fun k j => W5 (ix2 k j)) (fun j => b5 (ix1 j)) (fun k j => W6 (ix2 k j)) (fun j => b6 (ix1 j))
    (fun k j => W7 (ix2 k j)) (fun j => b7 (ix1 j)) (fun k j => W8 (ix2 k j)) (fun j => b8 (ix1 j))
    (scale (ix1 0))

end Cert.Mlp

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«100927_j58763742544053_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.Payload.lean ====
/-
  What one grid point's body leaves in the output block, entry by entry.

  The body holds the input block transposed: features along the rows, the block's 16000 input rows along the columns.
  Each layer is a matrix product W^T · h into a zero accumulator, plus the bias column repeated along the columns,
  under the activation: at (j, q) this is act (Σ_k W^T[j, k] · h[k, q] + b[j]), which is the dense layer
  act (Σ_k h[k, q] · W[k, j] + b[j]) on column q of the input, because the product of two extended reals commutes.
  Seven such layers with the hyperbolic tangent, an eighth with the logistic function onto a single row, and the
  scaling by the one entry of the scale block give, at (0, q), the network on column q of the input block.
  Roundings between the layers are the identity on the extended reals, and a cast of an array to its own shape
  is the identity.
-/
import proofs.«100927_j58763742544053_2_alg».proof.Proof.Gen.KernelIdeal.Frame
import proofs.«100927_j58763742544053_2_alg».proof.Proof.Spec
import proofs.«100927_j58763742544053_2_alg».proof.Proof.LibHostRead
import proofs.«100927_j58763742544053_2_alg».proof.Proof.LibPlainDot
import proofs.«100927_j58763742544053_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open Cert.LibHostRead Cert.LibPlainDot Cert.LibKeepdims

/-- The first layer's product, 50 × 2 by 2 × 16000, is rows times columns. -/
theorem plain_50x2 : PlainDot (M := 50) (K := 2) (N := 16000) dot_S50x2_S2x16000_S50x16000_1_0_0_1_n_n :=
  ⟨rfl, rfl, fun _ _ => rfl, fun _ _ => rfl, fun _ _ => rfl, fun _ _ => rfl⟩

/-- The products of layers two to six, 50 × 50 by 50 × 16000, are rows times columns. -/
theorem plain_50x50 : PlainDot (M := 50) (K := 50) (N := 16000) dot_S50x50_S50x16000_S50x16000_1_0_0_1_n_n :=
  ⟨rfl, rfl, fun _ _ => rfl, fun _ _ => rfl, fun _ _ => rfl, fun _ _ => rfl⟩

/-- The seventh layer's product, 40 × 50 by 50 × 16000, is rows times columns. -/
theorem plain_40x50 : PlainDot (M := 40) (K := 50) (N := 16000) dot_S40x50_S50x16000_S40x16000_1_0_0_1_n_n :=
  ⟨rfl, rfl, fun _ _ => rfl, fun _ _ => rfl, fun _ _ => rfl, fun _ _ => rfl⟩

/-- The last layer's product, 1 × 40 by 40 × 16000, is rows times columns. -/
theorem plain_1x40 : PlainDot (M := 1) (K := 40) (N := 16000) dot_S1x40_S40x16000_S1x16000_1_0_0_1_n_n :=
  ⟨rfl, rfl, fun _ _ => rfl, fun _ _ => rfl, fun _ _ => rfl, fun _ _ => rfl⟩

/-- The vector hyperbolic tangent at an index. -/
theorem tanh_apply {s : Shape} {φ : FTy} (x : FVec Ideal s φ) (i : s.Idx) : tanh x i = Ideal.tanh (x i) := rfl

/-- The vector logistic function at an index. -/
theorem logistic_apply {s : Shape} {φ : FTy} (x : FVec Ideal s φ) (i : s.Idx) : logistic x i = Ideal.logistic (x i) := rfl

/-- A transposed affine layer at (j, q): the product W^T · h into the zero accumulator plus the bias column repeated
    along the columns is Σ_k W^T[j, k] · h[k, q] + b[j]. -/
theorem layer_apply {M K N : ℕ} (d : DotDims ⟨2, ![M, K]⟩ ⟨2, ![K, N]⟩ ⟨2, ![M, N]⟩) (hd : PlainDot d)
    (W : FVec Ideal ⟨2, ![M, K]⟩ .bf16) (h : FVec Ideal ⟨2, ![K, N]⟩ .bf16) (b : FVec Ideal ⟨2, ![M, 1]⟩ .f32)
    (hb : (⟨2, ![M, 1]⟩ : Shape).Broadcasts ⟨2, ![M, N]⟩) (j : Fin M) (q : Fin N) :
    addf (matmul d none W h (constant (F := Ideal) ⟨2, ![M, N]⟩ .f32 0x00000000#32)) (broadcastTo ⟨2, ![M, N]⟩ b hb) (ix2 j q)
      = ∑ k : Fin K, W (ix2 j k) * h (ix2 k q) + b (ix2 j (0 : Fin 1)) := by
  rw [addf_apply, vmatmul_apply d hd, broadcastTo_a1_ab_apply]

/-- The same layer under the hyperbolic tangent, rounded (the identity here), at (j, q): the dense layer on column q
    of h with the weights read transposed. -/
theorem tanh_layer_apply {M K N : ℕ} (d : DotDims ⟨2, ![M, K]⟩ ⟨2, ![K, N]⟩ ⟨2, ![M, N]⟩) (hd : PlainDot d)
    (W : FVec Ideal ⟨2, ![M, K]⟩ .bf16) (h : FVec Ideal ⟨2, ![K, N]⟩ .bf16) (b : FVec Ideal ⟨2, ![M, 1]⟩ .f32)
    (hb : (⟨2, ![M, 1]⟩ : Shape).Broadcasts ⟨2, ![M, N]⟩) (hlt : FTy.bits .bf16 < FTy.bits .f32) (j : Fin M) (q : Fin N) :
    (truncf .bf16 (tanh (addf (matmul d none W h (constant (F := Ideal) ⟨2, ![M, N]⟩ .f32 0x00000000#32))
        (broadcastTo ⟨2, ![M, N]⟩ b hb))) hlt : FVec Ideal ⟨2, ![M, N]⟩ .bf16) (ix2 j q)
      = Cert.Mlp.dense Ideal.tanh (fun k => h (ix2 k q)) (fun k j => W (ix2 j k)) (fun j => b (ix2 j (0 : Fin 1))) j := by
  rw [truncf_apply, tanh_apply, layer_apply d hd]
  exact Cert.Mlp.dense_comm Ideal.tanh (fun k => h (ix2 k q)) (fun k j => W (ix2 j k)) (fun j => b (ix2 j (0 : Fin 1))) j

/-- Layers one to three at (j, q): three nested dense layers on column q of the input block. -/
theorem pay2_apply (v0 : Vec Ideal S2x16000 .f32) (v3 : Vec Ideal S50x2 .f32) (v6 : Vec Ideal S50x1 .f32)
    (v13 : Vec Ideal S50x50 .f32) (v16 : Vec Ideal S50x1 .f32) (v23 : Vec Ideal S50x50 .f32) (v26 : Vec Ideal S50x1 .f32)
    (j : Fin 50) (q : Fin 16000) :
    k0_pay2 (F := Ideal) v0 v3 v6 v13 v16 v23 v26 (ix2 j q)
      = Cert.Mlp.dense Ideal.tanh (Cert.Mlp.dense Ideal.tanh (Cert.Mlp.dense Ideal.tanh (fun k => v0 (ix2 k q))
          (fun k j => v3 (ix2 j k)) (fun j => v6 (ix2 j (0 : Fin 1))))
          (fun k j => v13 (ix2 j k)) (fun j => v16 (ix2 j (0 : Fin 1))))
          (fun k j => v23 (ix2 j k)) (fun j => v26 (ix2 j (0 : Fin 1))) j := by
  unfold k0_pay2
  simp only [shapeCast_self, tanh_layer_apply _ plain_50x50, tanh_layer_apply _ plain_50x2, truncf_apply]

/-- Layers four to seven at (j, q): four nested dense layers on column q of the third layer's output. -/
theorem pay5_apply (v32 : FVec Ideal S50x16000 .bf16) (v35 : FVec Ideal S50x50 .bf16) (v37 : FVec Ideal S50x1 .f32)
    (v43 : Vec Ideal S50x50 .f32) (v46 : Vec Ideal S50x1 .f32) (v53 : Vec Ideal S50x50 .f32) (v56 : Vec Ideal S50x1 .f32)
    (v63 : Vec Ideal S40x50 .f32) (v66 : Vec Ideal S40x1 .f32) (j : Fin 40) (q : Fin 16000) :
    k0_pay5 (F := Ideal) v32 v35 v37 v43 v46 v53 v56 v63 v66 (ix2 j q)
      = Cert.Mlp.dense Ideal.tanh (Cert.Mlp.dense Ideal.tanh (Cert.Mlp.dense Ideal.tanh (Cert.Mlp.dense Ideal.tanh
          (fun k => v32 (ix2 k q))
          (fun k j => v35 (ix2 j k)) (fun j => v37 (ix2 j (0 : Fin 1))))
          (fun k j => v43 (ix2 j k)) (fun j => v46 (ix2 j (0 : Fin 1))))
          (fun k j => v53 (ix2 j k)) (fun j => v56 (ix2 j (0 : Fin 1))))
          (fun k j => v63 (ix2 j k)) (fun j => v66 (ix2 j (0 : Fin 1))) j := by
  unfold k0_pay5
  simp only [shapeCast_self, tanh_layer_apply _ plain_40x50, tanh_layer_apply _ plain_50x50, truncf_apply]

/-- The last layer at (0, q): the logistic dense layer on column q of the seventh layer's output, times the scale. -/
theorem pay1_apply (v72 : FVec Ideal S40x16000 .bf16) (v75 : FVec Ideal S1x40 .bf16) (v77 : FVec Ideal S1x1 .f32)
    (v82 : Vec Ideal S1x1 .f32) (q : Fin 16000) :
    k0_pay1 (F := Ideal) v72 v75 v77 v82 (ix2 (0 : Fin 1) q)
      = v82 (ix2 (0 : Fin 1) (0 : Fin 1)) * Cert.Mlp.dense Ideal.logistic (fun k => v72 (ix2 k q))
          (fun k j => v75 (ix2 j k)) (fun j => v77 (ix2 j (0 : Fin 1))) (0 : Fin 1) := by
  unfold k0_pay1
  simp only [mulf_apply, logistic_apply, shapeCast_self, broadcastTo_a1_ab_apply, layer_apply _ plain_1x40]
  exact congrArg _ (Cert.Mlp.dense_comm Ideal.logistic (fun k => v72 (ix2 k q)) (fun k j => v75 (ix2 j k))
    (fun j => v77 (ix2 j (0 : Fin 1))) (0 : Fin 1))

/-- The output block at (0, q) is the network on column q of the input block: the block's one store covers it whole,
    every load reads a whole block, and the payloads chain the eight layers. -/
theorem out_apply (x0 : Vec Ideal S2x16000 .f32) (x1 : Vec Ideal S50x2 .f32) (x2 : Vec Ideal S50x1 .f32) (x3 : Vec Ideal S50x50 .f32) (x4 : Vec Ideal S50x1 .f32) (x5 : Vec Ideal S50x50 .f32) (x6 : Vec Ideal S50x1 .f32) (x7 : Vec Ideal S50x50 .f32) (x8 : Vec Ideal S50x1 .f32) (x9 : Vec Ideal S50x50 .f32) (x10 : Vec Ideal S50x1 .f32) (x11 : Vec Ideal S50x50 .f32) (x12 : Vec Ideal S50x1 .f32) (x13 : Vec Ideal S40x50 .f32) (x14 : Vec Ideal S40x1 .f32) (x15 : Vec Ideal S1x40 .f32) (x16 : Vec Ideal S1x1 .f32) (x17 : Vec Ideal S1x1 .f32) (q : Fin 16000) :
    out0_18 (F := Ideal) x0 x1 x2 x3 x4 x5 x6 x7 x8 x9 x10 x11 x12 x13 x14 x15 x16 x17 (ix2 (0 : Fin 1) q)
      = Cert.Mlp.net (fun k => x0 (ix2 k q))
          (fun k j => x1 (ix2 j k)) (fun j => x2 (ix2 j (0 : Fin 1))) (fun k j => x3 (ix2 j k)) (fun j => x4 (ix2 j (0 : Fin 1)))
          (fun k j => x5 (ix2 j k)) (fun j => x6 (ix2 j (0 : Fin 1))) (fun k j => x7 (ix2 j k)) (fun j => x8 (ix2 j (0 : Fin 1)))
          (fun k j => x9 (ix2 j k)) (fun j => x10 (ix2 j (0 : Fin 1))) (fun k j => x11 (ix2 j k)) (fun j => x12 (ix2 j (0 : Fin 1)))
          (fun k j => x13 (ix2 j k)) (fun j => x14 (ix2 j (0 : Fin 1))) (fun k j => x15 (ix2 j k)) (fun j => x16 (ix2 j (0 : Fin 1)))
          (x17 (ix2 (0 : Fin 1) (0 : Fin 1))) := by
  have hz : (![0, 0] : Fin 2 → Nat) = fun _ => 0 := by
    funext a
    match a with
    | ⟨0, _⟩ => rfl
    | ⟨1, _⟩ => rfl
  unfold out0_18
  rw [View.canon_unit_zero hz]
  simp only [View.ld_unit_zero (S := S2x16000) hz, View.ld_unit_zero (S := S50x2) hz, View.ld_unit_zero (S := S50x1) hz,
    View.ld_unit_zero (S := S50x50) hz, View.ld_unit_zero (S := S40x50) hz, View.ld_unit_zero (S := S40x1) hz,
    View.ld_unit_zero (S := S1x40) hz, View.ld_unit_zero (S := S1x1) hz]
  rw [pay1_apply]
  simp only [pay5_apply, pay2_apply]
  unfold k0_pay3 k0_pay4 k0_pay6 k0_pay7
  simp only [shapeCast_self, truncf_apply]
  rfl

end Cert.KernelIdeal.Payload

end
-- ==== Proof.Region.lean ====
/-
  The idealized kernel's result, as one function of its argument arrays.

  The program transposes `x` and every weight matrix, casts every bias and the scale to a column, runs the region over
  125 grid points, and casts the region's one row of two million entries back to a column. At a grid point `t` the
  region sees columns `t · 16000 … t · 16000 + 15999` of the transposed input and the whole of every weight and bias
  array, and writes the same columns of its output row. So:

  * each array the region finds is a transpose or a cast of an argument, read entry by entry;
  * entry `q` of what point `t` writes is the network on row `t · 16000 + q` of `x` (the body's arithmetic at one
    column, with the transposed weight reads undone by the transposes before the region);
  * the 125 blocks tile the output row, so after the last point column `n` of the row is the network on row `n`;
  * the final cast sends entry `(0, n)` of the row to entry `(n, 0)` of the result, which is therefore `G`.
-/
import proofs.«100927_j58763742544053_2_alg».proof.Proof.Gen.KernelIdeal.Frame
import proofs.«100927_j58763742544053_2_alg».proof.Proof.Spec
import proofs.«100927_j58763742544053_2_alg».proof.Proof.Payload
import proofs.«100927_j58763742544053_2_alg».proof.Proof.LibKeepdims
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)
/-! ## The arrays the region finds: each argument transposed, or a bias cast to a column -/

theorem V_main_v0 (c : Dev nD) : (V m c main_v0 : S2x2000000.Idx → EReal)
    = transpose S2x2000000 [1, 0] (m ((c : Thread nD τ).loc main_arg0)) transposes_S2000000x2_S2x2000000_1_0 := by
  show StableHlo.after hostOps0 (fun b => m (c, b)) (Proc.devRef .tc main_v0) = _
  after_results

theorem V_main_v1 (c : Dev nD) : (V m c main_v1 : S50x2.Idx → EReal)
    = transpose S50x2 [1, 0] (m ((c : Thread nD τ).loc main_arg1)) transposes_S2x50_S50x2_1_0 := by
  show StableHlo.after hostOps0 (fun b => m (c, b)) (Proc.devRef .tc main_v1) = _
  after_results

theorem V_main_v9 (c : Dev nD) : (V m c main_v9 : S50x1.Idx → EReal)
    = shapeCast S50x1 (m ((c : Thread nD τ).loc main_arg2)) shapeCasts_S50_S50x1 := by
  show StableHlo.after hostOps0 (fun b => m (c, b)) (Proc.devRef .tc main_v9) = _
  after_results
  rfl

theorem V_main_v2 (c : Dev nD) : (V m c main_v2 : S50x50.Idx → EReal)
    = transpose S50x50 [1, 0] (m ((c : Thread nD τ).loc main_arg3)) transposes_S50x50_S50x50_1_0 := by
  show StableHlo.after hostOps0 (fun b => m (c, b)) (Proc.devRef .tc main_v2) = _
  after_results

theorem V_main_v10 (c : Dev nD) : (V m c main_v10 : S50x1.Idx → EReal)
    = shapeCast S50x1 (m ((c : Thread nD τ).loc main_arg4)) shapeCasts_S50_S50x1 := by
  show StableHlo.after hostOps0 (fun b => m (c, b)) (Proc.devRef .tc main_v10) = _
  after_results
  rfl

theorem V_main_v3 (c : Dev nD) : (V m c main_v3 : S50x50.Idx → EReal)
    = transpose S50x50 [1, 0] (m ((c : Thread nD τ).loc main_arg5)) transposes_S50x50_S50x50_1_0 := by
  show StableHlo.after hostOps0 (fun b => m (c, b)) (Proc.devRef .tc main_v3) = _
  after_results

theorem V_main_v11 (c : Dev nD) : (V m c main_v11 : S50x1.Idx → EReal)
    = shapeCast S50x1 (m ((c : Thread nD τ).loc main_arg6)) shapeCasts_S50_S50x1 := by
  show StableHlo.after hostOps0 (fun b => m (c, b)) (Proc.devRef .tc main_v11) = _
  after_results
  rfl

theorem V_main_v4 (c : Dev nD) : (V m c main_v4 : S50x50.Idx → EReal)
    = transpose S50x50 [1, 0] (m ((c : Thread nD τ).loc main_arg7)) transposes_S50x50_S50x50_1_0 := by
  show StableHlo.after hostOps0 (fun b => m (c, b)) (Proc.devRef .tc main_v4) = _
  after_results

theorem V_main_v12 (c : Dev nD) : (V m c main_v12 : S50x1.Idx → EReal)
    = shapeCast S50x1 (m ((c : Thread nD τ).loc main_arg8)) shapeCasts_S50_S50x1 := by
  show StableHlo.after hostOps0 (fun b => m (c, b)) (Proc.devRef .tc main_v12) = _
  after_results
  rfl

theorem V_main_v5 (c : Dev nD) : (V m c main_v5 : S50x50.Idx → EReal)
    = transpose S50x50 [1, 0] (m ((c : Thread nD τ).loc main_arg9)) transposes_S50x50_S50x50_1_0 := by
  show StableHlo.after hostOps0 (fun b => m (c, b)) (Proc.devRef .tc main_v5) = _
  after_results

theorem V_main_v13 (c : Dev nD) : (V m c main_v13 : S50x1.Idx → EReal)
    = shapeCast S50x1 (m ((c : Thread nD τ).loc main_arg10)) shapeCasts_S50_S50x1 := by
  show StableHlo.after hostOps0 (fun b => m (c, b)) (Proc.devRef .tc main_v13) = _
  after_results
  rfl

theorem V_main_v6 (c : Dev nD) : (V m c main_v6 : S50x50.Idx → EReal)
    = transpose S50x50 [1, 0] (m ((c : Thread nD τ).loc main_arg11)) transposes_S50x50_S50x50_1_0 := by
  show StableHlo.after hostOps0 (fun b => m (c, b)) (Proc.devRef .tc main_v6) = _
  after_results

theorem V_main_v14 (c : Dev nD) : (V m c main_v14 : S50x1.Idx → EReal)
    = shapeCast S50x1 (m ((c : Thread nD τ).loc main_arg12)) shapeCasts_S50_S50x1 := by
  show StableHlo.after hostOps0 (fun b => m (c, b)) (Proc.devRef .tc main_v14) = _
  after_results
  rfl

theorem V_main_v7 (c : Dev nD) : (V m c main_v7 : S40x50.Idx → EReal)
    = transpose S40x50 [1, 0] (m ((c : Thread nD τ).loc main_arg13)) transposes_S50x40_S40x50_1_0 := by
  show StableHlo.after hostOps0 (fun b => m (c, b)) (Proc.devRef .tc main_v7) = _
  after_results

theorem V_main_v15 (c : Dev nD) : (V m c main_v15 : S40x1.Idx → EReal)
    = shapeCast S40x1 (m ((c : Thread nD τ).loc main_arg14)) shapeCasts_S40_S40x1 := by
  show StableHlo.after hostOps0 (fun b => m (c, b)) (Proc.devRef .tc main_v15) = _
  after_results
  rfl

theorem V_main_v8 (c : Dev nD) : (V m c main_v8 : S1x40.Idx → EReal)
    = transpose S1x40 [1, 0] (m ((c : Thread nD τ).loc main_arg15)) transposes_S40x1_S1x40_1_0 := by
  show StableHlo.after hostOps0 (fun b => m (c, b)) (Proc.devRef .tc main_v8) = _
  after_results

theorem V_main_v16 (c : Dev nD) : (V m c main_v16 : S1x1.Idx → EReal)
    = shapeCast S1x1 (m ((c : Thread nD τ).loc main_arg16)) shapeCasts_S1_S1x1 := by
  show StableHlo.after hostOps0 (fun b => m (c, b)) (Proc.devRef .tc main_v16) = _
  after_results
  rfl

theorem V_main_v17 (c : Dev nD) : (V m c main_v17 : S1x1.Idx → EReal)
    = shapeCast S1x1 (m ((c : Thread nD τ).loc main_arg17)) shapeCasts_S1_S1x1 := by
  show StableHlo.after hostOps0 (fun b => m (c, b)) (Proc.devRef .tc main_v17) = _
  after_results
  rfl

/-! ## The printed index maps over the grid: the input rows and the output move with the grid point along the
    second axis, sixteen thousand columns a point; every weight and bias block is the whole array -/

theorem idx_x : ∀ t : Fin cfg0.N, win0_0.index t (0 : Fin 2) = 0 ∧ win0_0.index t (1 : Fin 2) = t.val :=
  (by decide +kernel : ∀ t : Fin grid0.N, _)

theorem idx_out : ∀ t : Fin cfg0.N, win0_18.index t (0 : Fin 2) = 0 ∧ win0_18.index t (1 : Fin 2) = t.val :=
  (by decide +kernel : ∀ t : Fin grid0.N, _)

theorem idx_1 : ∀ t : Fin cfg0.N, win0_1.index t (0 : Fin 2) = 0 ∧ win0_1.index t (1 : Fin 2) = 0 :=
  (by decide +kernel : ∀ t : Fin grid0.N, _)

theorem idx_2 : ∀ t : Fin cfg0.N, win0_2.index t (0 : Fin 2) = 0 ∧ win0_2.index t (1 : Fin 2) = 0 :=
  (by decide +kernel : ∀ t : Fin grid0.N, _)

theorem idx_3 : ∀ t : Fin cfg0.N, win0_3.index t (0 : Fin 2) = 0 ∧ win0_3.index t (1 : Fin 2) = 0 :=
  (by decide +kernel : ∀ t : Fin grid0.N, _)

theorem idx_4 : ∀ t : Fin cfg0.N, win0_4.index t (0 : Fin 2) = 0 ∧ win0_4.index t (1 : Fin 2) = 0 :=
  (by decide +kernel : ∀ t : Fin grid0.N, _)

theorem idx_5 : ∀ t : Fin cfg0.N, win0_5.index t (0 : Fin 2) = 0 ∧ win0_5.index t (1 : Fin 2) = 0 :=
  (by decide +kernel : ∀ t : Fin grid0.N, _)

theorem idx_6 : ∀ t : Fin cfg0.N, win0_6.index t (0 : Fin 2) = 0 ∧ win0_6.index t (1 : Fin 2) = 0 :=
  (by decide +kernel : ∀ t : Fin grid0.N, _)

theorem idx_7 : ∀ t : Fin cfg0.N, win0_7.index t (0 : Fin 2) = 0 ∧ win0_7.index t (1 : Fin 2) = 0 :=
  (by decide +kernel : ∀ t : Fin grid0.N, _)

theorem idx_8 : ∀ t : Fin cfg0.N, win0_8.index t (0 : Fin 2) = 0 ∧ win0_8.index t (1 : Fin 2) = 0 :=
  (by decide +kernel : ∀ t : Fin grid0.N, _)

theorem idx_9 : ∀ t : Fin cfg0.N, win0_9.index t (0 : Fin 2) = 0 ∧ win0_9.index t (1 : Fin 2) = 0 :=
  (by decide +kernel : ∀ t : Fin grid0.N, _)

theorem idx_10 : ∀ t : Fin cfg0.N, win0_10.index t (0 : Fin 2) = 0 ∧ win0_10.index t (1 : Fin 2) = 0 :=
  (by decide +kernel : ∀ t : Fin grid0.N, _)

theorem idx_11 : ∀ t : Fin cfg0.N, win0_11.index t (0 : Fin 2) = 0 ∧ win0_11.index t (1 : Fin 2) = 0 :=
  (by decide +kernel : ∀ t : Fin grid0.N, _)

theorem idx_12 : ∀ t : Fin cfg0.N, win0_12.index t (0 : Fin 2) = 0 ∧ win0_12.index t (1 : Fin 2) = 0 :=
  (by decide +kernel : ∀ t : Fin grid0.N, _)

theorem idx_13 : ∀ t : Fin cfg0.N, win0_13.index t (0 : Fin 2) = 0 ∧ win0_13.index t (1 : Fin 2) = 0 :=
  (by decide +kernel : ∀ t : Fin grid0.N, _)

theorem idx_14 : ∀ t : Fin cfg0.N, win0_14.index t (0 : Fin 2) = 0 ∧ win0_14.index t (1 : Fin 2) = 0 :=
  (by decide +kernel : ∀ t : Fin grid0.N, _)

theorem idx_15 : ∀ t : Fin cfg0.N, win0_15.index t (0 : Fin 2) = 0 ∧ win0_15.index t (1 : Fin 2) = 0 :=
  (by decide +kernel : ∀ t : Fin grid0.N, _)

theorem idx_16 : ∀ t : Fin cfg0.N, win0_16.index t (0 : Fin 2) = 0 ∧ win0_16.index t (1 : Fin 2) = 0 :=
  (by decide +kernel : ∀ t : Fin grid0.N, _)

theorem idx_17 : ∀ t : Fin cfg0.N, win0_17.index t (0 : Fin 2) = 0 ∧ win0_17.index t (1 : Fin 2) = 0 :=
  (by decide +kernel : ∀ t : Fin grid0.N, _)

/-! ## Each window's block at a point, read at an entry -/

/-- Column `q` of the input block at point `t` is row `t · 16000 + q` of `x`. -/
theorem blk_x (c : Dev nD) (t : Fin cfg0.N) (k : Fin 2) (q : Fin 16000) (n : Fin 2000000) (hn : n.val = t.val * 16000 + q.val) :
    iblk m c 0 t (ix2 k q) = (m ((c : Thread nD τ).loc main_arg0)) (ix2 n k) := by
  obtain ⟨e0, e1⟩ := idx_x t
  show V m c main_v0 (((cfg0.win 0).blk t).view.emb (ix2 k q)) = _
  have he : ((cfg0.win 0).blk t).view.emb (ix2 k q) = ix2 k n := by
    funext a; apply Fin.ext
    match a with
    | ⟨0, _⟩ => show win0_0.index t (0 : Fin 2) * 2 + 1 * k.val = k.val; omega
    | ⟨1, _⟩ => show win0_0.index t (1 : Fin 2) * 16000 + 1 * q.val = n.val; omega
  rw [he, V_main_v0, transpose_ix2_apply]

theorem blk_1 (c : Dev nD) (t : Fin cfg0.N) (j : Fin 50) (k : Fin 2) :
    iblk m c 1 t (ix2 j k) = (m ((c : Thread nD τ).loc main_arg1)) (ix2 k j) := by
  obtain ⟨e0, e1⟩ := idx_1 t
  show V m c main_v1 (((cfg0.win 1).blk t).view.emb (ix2 j k)) = _
  have he : ((cfg0.win 1).blk t).view.emb (ix2 j k) = ix2 j k := by
    funext a; apply Fin.ext
    match a with
    | ⟨0, _⟩ => show win0_1.index t (0 : Fin 2) * 50 + 1 * j.val = j.val; omega
    | ⟨1, _⟩ => show win0_1.index t (1 : Fin 2) * 2 + 1 * k.val = k.val; omega
  rw [he, V_main_v1, transpose_ix2_apply]

theorem blk_2 (c : Dev nD) (t : Fin cfg0.N) (j : Fin 50) :
    iblk m c 2 t (ix2 j (0 : Fin 1)) = (m ((c : Thread nD τ).loc main_arg2)) (ix1 j) := by
  obtain ⟨e0, e1⟩ := idx_2 t
  show V m c main_v9 (((cfg0.win 2).blk t).view.emb (ix2 j (0 : Fin 1))) = _
  have he : ((cfg0.win 2).blk t).view.emb (ix2 j (0 : Fin 1)) = ix2 j (0 : Fin 1) := by
    funext a; apply Fin.ext
    match a with
    | ⟨0, _⟩ => show win0_2.index t (0 : Fin 2) * 50 + 1 * j.val = j.val; omega
    | ⟨1, _⟩ => show win0_2.index t (1 : Fin 2) * 1 + 1 * 0 = 0; omega
  rw [he, V_main_v9, Cert.LibKeepdims.shapeCast_a_a1_apply]

theorem blk_3 (c : Dev nD) (t : Fin cfg0.N) (j : Fin 50) (k : Fin 50) :
    iblk m c 3 t (ix2 j k) = (m ((c : Thread nD τ).loc main_arg3)) (ix2 k j) := by
  obtain ⟨e0, e1⟩ := idx_3 t
  show V m c main_v2 (((cfg0.win 3).blk t).view.emb (ix2 j k)) = _
  have he : ((cfg0.win 3).blk t).view.emb (ix2 j k) = ix2 j k := by
    funext a; apply Fin.ext
    match a with
    | ⟨0, _⟩ => show win0_3.index t (0 : Fin 2) * 50 + 1 * j.val = j.val; omega
    | ⟨1, _⟩ => show win0_3.index t (1 : Fin 2) * 50 + 1 * k.val = k.val; omega
  rw [he, V_main_v2, transpose_ix2_apply]

theorem blk_4 (c : Dev nD) (t : Fin cfg0.N) (j : Fin 50) :
    iblk m c 4 t (ix2 j (0 : Fin 1)) = (m ((c : Thread nD τ).loc main_arg4)) (ix1 j) := by
  obtain ⟨e0, e1⟩ := idx_4 t
  show V m c main_v10 (((cfg0.win 4).blk t).view.emb (ix2 j (0 : Fin 1))) = _
  have he : ((cfg0.win 4).blk t).view.emb (ix2 j (0 : Fin 1)) = ix2 j (0 : Fin 1) := by
    funext a; apply Fin.ext
    match a with
    | ⟨0, _⟩ => show win0_4.index t (0 : Fin 2) * 50 + 1 * j.val = j.val; omega
    | ⟨1, _⟩ => show win0_4.index t (1 : Fin 2) * 1 + 1 * 0 = 0; omega
  rw [he, V_main_v10, Cert.LibKeepdims.shapeCast_a_a1_apply]

theorem blk_5 (c : Dev nD) (t : Fin cfg0.N) (j : Fin 50) (k : Fin 50) :
    iblk m c 5 t (ix2 j k) = (m ((c : Thread nD τ).loc main_arg5)) (ix2 k j) := by
  obtain ⟨e0, e1⟩ := idx_5 t
  show V m c main_v3 (((cfg0.win 5).blk t).view.emb (ix2 j k)) = _
  have he : ((cfg0.win 5).blk t).view.emb (ix2 j k) = ix2 j k := by
    funext a; apply Fin.ext
    match a with
    | ⟨0, _⟩ => show win0_5.index t (0 : Fin 2) * 50 + 1 * j.val = j.val; omega
    | ⟨1, _⟩ => show win0_5.index t (1 : Fin 2) * 50 + 1 * k.val = k.val; omega
  rw [he, V_main_v3, transpose_ix2_apply]

theorem blk_6 (c : Dev nD) (t : Fin cfg0.N) (j : Fin 50) :
    iblk m c 6 t (ix2 j (0 : Fin 1)) = (m ((c : Thread nD τ).loc main_arg6)) (ix1 j) := by
  obtain ⟨e0, e1⟩ := idx_6 t
  show V m c main_v11 (((cfg0.win 6).blk t).view.emb (ix2 j (0 : Fin 1))) = _
  have he : ((cfg0.win 6).blk t).view.emb (ix2 j (0 : Fin 1)) = ix2 j (0 : Fin 1) := by
    funext a; apply Fin.ext
    match a with
    | ⟨0, _⟩ => show win0_6.index t (0 : Fin 2) * 50 + 1 * j.val = j.val; omega
    | ⟨1, _⟩ => show win0_6.index t (1 : Fin 2) * 1 + 1 * 0 = 0; omega
  rw [he, V_main_v11, Cert.LibKeepdims.shapeCast_a_a1_apply]

theorem blk_7 (c : Dev nD) (t : Fin cfg0.N) (j : Fin 50) (k : Fin 50) :
    iblk m c 7 t (ix2 j k) = (m ((c : Thread nD τ).loc main_arg7)) (ix2 k j) := by
  obtain ⟨e0, e1⟩ := idx_7 t
  show V m c main_v4 (((cfg0.win 7).blk t).view.emb (ix2 j k)) = _
  have he : ((cfg0.win 7).blk t).view.emb (ix2 j k) = ix2 j k := by
    funext a; apply Fin.ext
    match a with
    | ⟨0, _⟩ => show win0_7.index t (0 : Fin 2) * 50 + 1 * j.val = j.val; omega
    | ⟨1, _⟩ => show win0_7.index t (1 : Fin 2) * 50 + 1 * k.val = k.val; omega
  rw [he, V_main_v4, transpose_ix2_apply]

theorem blk_8 (c : Dev nD) (t : Fin cfg0.N) (j : Fin 50) :
    iblk m c 8 t (ix2 j (0 : Fin 1)) = (m ((c : Thread nD τ).loc main_arg8)) (ix1 j) := by
  obtain ⟨e0, e1⟩ := idx_8 t
  show V m c main_v12 (((cfg0.win 8).blk t).view.emb (ix2 j (0 : Fin 1))) = _
  have he : ((cfg0.win 8).blk t).view.emb (ix2 j (0 : Fin 1)) = ix2 j (0 : Fin 1) := by
    funext a; apply Fin.ext
    match a with
    | ⟨0, _⟩ => show win0_8.index t (0 : Fin 2) * 50 + 1 * j.val = j.val; omega
    | ⟨1, _⟩ => show win0_8.index t (1 : Fin 2) * 1 + 1 * 0 = 0; omega
  rw [he, V_main_v12, Cert.LibKeepdims.shapeCast_a_a1_apply]

theorem blk_9 (c : Dev nD) (t : Fin cfg0.N) (j : Fin 50) (k : Fin 50) :
    iblk m c 9 t (ix2 j k) = (m ((c : Thread nD τ).loc main_arg9)) (ix2 k j) := by
  obtain ⟨e0, e1⟩ := idx_9 t
  show V m c main_v5 (((cfg0.win 9).blk t).view.emb (ix2 j k)) = _
  have he : ((cfg0.win 9).blk t).view.emb (ix2 j k) = ix2 j k := by
    funext a; apply Fin.ext
    match a with
    | ⟨0, _⟩ => show win0_9.index t (0 : Fin 2) * 50 + 1 * j.val = j.val; omega
    | ⟨1, _⟩ => show win0_9.index t (1 : Fin 2) * 50 + 1 * k.val = k.val; omega
  rw [he, V_main_v5, transpose_ix2_apply]

theorem blk_10 (c : Dev nD) (t : Fin cfg0.N) (j : Fin 50) :
    iblk m c 10 t (ix2 j (0 : Fin 1)) = (m ((c : Thread nD τ).loc main_arg10)) (ix1 j) := by
  obtain ⟨e0, e1⟩ := idx_10 t
  show V m c main_v13 (((cfg0.win 10).blk t).view.emb (ix2 j (0 : Fin 1))) = _
  have he : ((cfg0.win 10).blk t).view.emb (ix2 j (0 : Fin 1)) = ix2 j (0 : Fin 1) := by
    funext a; apply Fin.ext
    match a with
    | ⟨0, _⟩ => show win0_10.index t (0 : Fin 2) * 50 + 1 * j.val = j.val; omega
    | ⟨1, _⟩ => show win0_10.index t (1 : Fin 2) * 1 + 1 * 0 = 0; omega
  rw [he, V_main_v13, Cert.LibKeepdims.shapeCast_a_a1_apply]

theorem blk_11 (c : Dev nD) (t : Fin cfg0.N) (j : Fin 50) (k : Fin 50) :
    iblk m c 11 t (ix2 j k) = (m ((c : Thread nD τ).loc main_arg11)) (ix2 k j) := by
  obtain ⟨e0, e1⟩ := idx_11 t
  show V m c main_v6 (((cfg0.win 11).blk t).view.emb (ix2 j k)) = _
  have he : ((cfg0.win 11).blk t).view.emb (ix2 j k) = ix2 j k := by
    funext a; apply Fin.ext
    match a with
    | ⟨0, _⟩ => show win0_11.index t (0 : Fin 2) * 50 + 1 * j.val = j.val; omega
    | ⟨1, _⟩ => show win0_11.index t (1 : Fin 2) * 50 + 1 * k.val = k.val; omega
  rw [he, V_main_v6, transpose_ix2_apply]

theorem blk_12 (c : Dev nD) (t : Fin cfg0.N) (j : Fin 50) :
    iblk m c 12 t (ix2 j (0 : Fin 1)) = (m ((c : Thread nD τ).loc main_arg12)) (ix1 j) := by
  obtain ⟨e0, e1⟩ := idx_12 t
  show V m c main_v14 (((cfg0.win 12).blk t).view.emb (ix2 j (0 : Fin 1))) = _
  have he : ((cfg0.win 12).blk t).view.emb (ix2 j (0 : Fin 1)) = ix2 j (0 : Fin 1) := by
    funext a; apply Fin.ext
    match a with
    | ⟨0, _⟩ => show win0_12.index t (0 : Fin 2) * 50 + 1 * j.val = j.val; omega
    | ⟨1, _⟩ => show win0_12.index t (1 : Fin 2) * 1 + 1 * 0 = 0; omega
  rw [he, V_main_v14, Cert.LibKeepdims.shapeCast_a_a1_apply]

theorem blk_13 (c : Dev nD) (t : Fin cfg0.N) (j : Fin 40) (k : Fin 50) :
    iblk m c 13 t (ix2 j k) = (m ((c : Thread nD τ).loc main_arg13)) (ix2 k j) := by
  obtain ⟨e0, e1⟩ := idx_13 t
  show V m c main_v7 (((cfg0.win 13).blk t).view.emb (ix2 j k)) = _
  have he : ((cfg0.win 13).blk t).view.emb (ix2 j k) = ix2 j k := by
    funext a; apply Fin.ext
    match a with
    | ⟨0, _⟩ => show win0_13.index t (0 : Fin 2) * 40 + 1 * j.val = j.val; omega
    | ⟨1, _⟩ => show win0_13.index t (1 : Fin 2) * 50 + 1 * k.val = k.val; omega
  rw [he, V_main_v7, transpose_ix2_apply]

theorem blk_14 (c : Dev nD) (t : Fin cfg0.N) (j : Fin 40) :
    iblk m c 14 t (ix2 j (0 : Fin 1)) = (m ((c : Thread nD τ).loc main_arg14)) (ix1 j) := by
  obtain ⟨e0, e1⟩ := idx_14 t
  show V m c main_v15 (((cfg0.win 14).blk t).view.emb (ix2 j (0 : Fin 1))) = _
  have he : ((cfg0.win 14).blk t).view.emb (ix2 j (0 : Fin 1)) = ix2 j (0 : Fin 1) := by
    funext a; apply Fin.ext
    match a with
    | ⟨0, _⟩ => show win0_14.index t (0 : Fin 2) * 40 + 1 * j.val = j.val; omega
    | ⟨1, _⟩ => show win0_14.index t (1 : Fin 2) * 1 + 1 * 0 = 0; omega
  rw [he, V_main_v15, Cert.LibKeepdims.shapeCast_a_a1_apply]

theorem blk_15 (c : Dev nD) (t : Fin cfg0.N) (j : Fin 1) (k : Fin 40) :
    iblk m c 15 t (ix2 j k) = (m ((c : Thread nD τ).loc main_arg15)) (ix2 k j) := by
  obtain ⟨e0, e1⟩ := idx_15 t
  show V m c main_v8 (((cfg0.win 15).blk t).view.emb (ix2 j k)) = _
  have he : ((cfg0.win 15).blk t).view.emb (ix2 j k) = ix2 j k := by
    funext a; apply Fin.ext
    match a with
    | ⟨0, _⟩ => show win0_15.index t (0 : Fin 2) * 1 + 1 * j.val = j.val; omega
    | ⟨1, _⟩ => show win0_15.index t (1 : Fin 2) * 40 + 1 * k.val = k.val; omega
  rw [he, V_main_v8, transpose_ix2_apply]

theorem blk_16 (c : Dev nD) (t : Fin cfg0.N) (j : Fin 1) :
    iblk m c 16 t (ix2 j (0 : Fin 1)) = (m ((c : Thread nD τ).loc main_arg16)) (ix1 j) := by
  obtain ⟨e0, e1⟩ := idx_16 t
  show V m c main_v16 (((cfg0.win 16).blk t).view.emb (ix2 j (0 : Fin 1))) = _
  have he : ((cfg0.win 16).blk t).view.emb (ix2 j (0 : Fin 1)) = ix2 j (0 : Fin 1) := by
    funext a; apply Fin.ext
    match a with
    | ⟨0, _⟩ => show win0_16.index t (0 : Fin 2) * 1 + 1 * j.val = j.val; omega
    | ⟨1, _⟩ => show win0_16.index t (1 : Fin 2) * 1 + 1 * 0 = 0; omega
  rw [he, V_main_v16, Cert.LibKeepdims.shapeCast_a_a1_apply]

theorem blk_17 (c : Dev nD) (t : Fin cfg0.N) (j : Fin 1) :
    iblk m c 17 t (ix2 j (0 : Fin 1)) = (m ((c : Thread nD τ).loc main_arg17)) (ix1 j) := by
  obtain ⟨e0, e1⟩ := idx_17 t
  show V m c main_v17 (((cfg0.win 17).blk t).view.emb (ix2 j (0 : Fin 1))) = _
  have he : ((cfg0.win 17).blk t).view.emb (ix2 j (0 : Fin 1)) = ix2 j (0 : Fin 1) := by
    funext a; apply Fin.ext
    match a with
    | ⟨0, _⟩ => show win0_17.index t (0 : Fin 2) * 1 + 1 * j.val = j.val; omega
    | ⟨1, _⟩ => show win0_17.index t (1 : Fin 2) * 1 + 1 * 0 = 0; omega
  rw [he, V_main_v17, Cert.LibKeepdims.shapeCast_a_a1_apply]

/-! ## The network does not see how its inputs are spelt -/

theorem net_congr {x x' : Fin 2 → EReal}
    {W1 W1' : Fin 2 → Fin 50 → EReal} {b1 b1' : Fin 50 → EReal} {W2 W2' : Fin 50 → Fin 50 → EReal} {b2 b2' : Fin 50 → EReal}
    {W3 W3' : Fin 50 → Fin 50 → EReal} {b3 b3' : Fin 50 → EReal} {W4 W4' : Fin 50 → Fin 50 → EReal} {b4 b4' : Fin 50 → EReal}
    {W5 W5' : Fin 50 → Fin 50 → EReal} {b5 b5' : Fin 50 → EReal} {W6 W6' : Fin 50 → Fin 50 → EReal} {b6 b6' : Fin 50 → EReal}
    {W7 W7' : Fin 50 → Fin 40 → EReal} {b7 b7' : Fin 40 → EReal} {W8 W8' : Fin 40 → Fin 1 → EReal} {b8 b8' : Fin 1 → EReal} {s s' : EReal}
    (hx : ∀ k, x k = x' k)
    (h1 : ∀ k j, W1 k j = W1' k j) (g1 : ∀ j, b1 j = b1' j) (h2 : ∀ k j, W2 k j = W2' k j) (g2 : ∀ j, b2 j = b2' j)
    (h3 : ∀ k j, W3 k j = W3' k j) (g3 : ∀ j, b3 j = b3' j) (h4 : ∀ k j, W4 k j = W4' k j) (g4 : ∀ j, b4 j = b4' j)
    (h5 : ∀ k j, W5 k j = W5' k j) (g5 : ∀ j, b5 j = b5' j) (h6 : ∀ k j, W6 k j = W6' k j) (g6 : ∀ j, b6 j = b6' j)
    (h7 : ∀ k j, W7 k j = W7' k j) (g7 : ∀ j, b7 j = b7' j) (h8 : ∀ k j, W8 k j = W8' k j) (g8 : ∀ j, b8 j = b8' j) (hs : s = s') :
    Cert.Mlp.net x W1 b1 W2 b2 W3 b3 W4 b4 W5 b5 W6 b6 W7 b7 W8 b8 s
      = Cert.Mlp.net x' W1' b1' W2' b2' W3' b3' W4' b4' W5' b5' W6' b6' W7' b7' W8' b8' s' := by
  obtain rfl : x = x' := funext hx
  obtain rfl : W1 = W1' := funext fun k => funext fun j => h1 k j
  obtain rfl : b1 = b1' := funext g1
  obtain rfl : W2 = W2' := funext fun k => funext fun j => h2 k j
  obtain rfl : b2 = b2' := funext g2
  obtain rfl : W3 = W3' := funext fun k => funext fun j => h3 k j
  obtain rfl : b3 = b3' := funext g3
  obtain rfl : W4 = W4' := funext fun k => funext fun j => h4 k j
  obtain rfl : b4 = b4' := funext g4
  obtain rfl : W5 = W5' := funext fun k => funext fun j => h5 k j
  obtain rfl : b5 = b5' := funext g5
  obtain rfl : W6 = W6' := funext fun k => funext fun j => h6 k j
  obtain rfl : b6 = b6' := funext g6
  obtain rfl : W7 = W7' := funext fun k => funext fun j => h7 k j
  obtain rfl : b7 = b7' := funext g7
  obtain rfl : W8 = W8' := funext fun k => funext fun j => h8 k j
  obtain rfl : b8 = b8' := funext g8
  obtain rfl : s = s' := hs
  rfl

/-! ## The output array of the region as one function of the arguments -/

/-- The result as the region writes it, one row of two million columns: column `n` is the network on row `n` of `x`. -/
def rowOut (c : Dev nD) : S1x2000000.Idx → EReal := fun i =>
  Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (ix2 (i 1) (0 : Fin 1))

/-- What point `t` writes back is block `t` of that row: entry `q` of the block is the network on row `t · 16000 + q`. -/
theorem flushed_eq (c : Dev nD) (t : Fin cfg0.N) :
    (dats m 0 c).flushed 18 t = ((cfg0.win 18).blk t).view.read (Elt Ideal) (rowOut m c) := by
  show (cfg0.win 18).cut (grid0.coords t) ((dats m 0 c).after 18 t) = _
  rw [after0_18]
  funext y
  obtain ⟨u, q, rfl⟩ : ∃ (u : Fin 1) (q : Fin 16000), y = ix2 u q := ⟨y 0, y 1, eq_ix2 y⟩
  obtain rfl : u = 0 := Subsingleton.elim _ _
  obtain ⟨e0, e1⟩ := idx_out t
  have ht : t.val < 125 := t.isLt
  have hq : q.val < 16000 := q.isLt
  have hlt : t.val * 16000 + q.val < 2000000 := by omega
  have he : ((cfg0.win 18).blk t).view.emb (ix2 (0 : Fin 1) q) = ix2 (0 : Fin 1) (⟨t.val * 16000 + q.val, hlt⟩ : Fin 2000000) := by
    funext a; apply Fin.ext
    match a with
    | ⟨0, _⟩ => show win0_18.index t (0 : Fin 2) * 1 + 1 * 0 = 0; omega
    | ⟨1, _⟩ => show win0_18.index t (1 : Fin 2) * 16000 + 1 * q.val = t.val * 16000 + q.val; omega
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 (0 : Fin 1) q)
    = rowOut m c (((cfg0.win 18).blk t).view.emb (ix2 (0 : Fin 1) q))
  rw [he, Cert.KernelIdeal.Payload.out_apply]
  unfold rowOut Cert.Mlp.G
  exact net_congr (fun k => blk_x m c t k q _ rfl)
    (fun k j => blk_1 m c t j k) (fun j => blk_2 m c t j) (fun k j => blk_3 m c t j k) (fun j => blk_4 m c t j)
    (fun k j => blk_5 m c t j k) (fun j => blk_6 m c t j) (fun k j => blk_7 m c t j k) (fun j => blk_8 m c t j)
    (fun k j => blk_9 m c t j k) (fun j => blk_10 m c t j) (fun k j => blk_11 m c t j k) (fun j => blk_12 m c t j)
    (fun k j => blk_13 m c t j k) (fun j => blk_14 m c t j) (fun k j => blk_15 m c t j k) (fun j => blk_16 m c t j)
    (blk_17 m c t 0)

/-- An index of the row is in point `t`'s block iff each coordinate is in the block's range on its axis. -/
theorem mem_blk (t : Fin cfg0.N) (i : S1x2000000.Idx) :
    i ∈ ((cfg0.win 18).blk t).view.set ↔ ∀ a : Fin 2, win0_18.index t a * S1x16000.size a ≤ (i a).val ∧ (i a).val < win0_18.index t a * S1x16000.size a + S1x16000.size a := by
  show i ∈ ((View.whole main_v18).slice (win0_18.rect t)).set ↔ _
  rw [View.set_slice_whole, Rect.mem_set_unit]
  exact Iff.rfl

/-- Column `n` lies in the block of point `n / 16000`: the 125 blocks tile the row. -/
theorem cover (i : S1x2000000.Idx) : ∃ t : Fin cfg0.N, (cfg0.win 18).flush t = true ∧ i ∈ ((cfg0.win 18).blk t).view.set := by
  have h0 : (i 0).val < 1 := (i 0).isLt
  have h1 : (i 1).val < 2000000 := (i 1).isLt
  have hN : cfg0.N = 125 := N_0
  obtain ⟨t, ht⟩ : ∃ t : Fin cfg0.N, t.val = (i 1).val / 16000 := ⟨⟨(i 1).val / 16000, by rw [hN]; omega⟩, rfl⟩
  obtain ⟨e0, e1⟩ := idx_out t
  refine ⟨t, flush0_18 t, ?_⟩
  rw [mem_blk]
  intro a
  match a with
  | ⟨0, _⟩ => show win0_18.index t (0 : Fin 2) * 1 ≤ (i 0).val ∧ (i 0).val < win0_18.index t (0 : Fin 2) * 1 + 1; omega
  | ⟨1, _⟩ => show win0_18.index t (1 : Fin 2) * 16000 ≤ (i 1).val ∧ (i 1).val < win0_18.index t (1 : Fin 2) * 16000 + 16000; omega

/-- The region's output array after the last point. -/
theorem final (c : Dev nD) : (dats m 0 c).arrAt 18 cfg0.N = rowOut m c :=
  (dats m 0 c).arrAt_eq_of_cover 18 (rowOut m c) (fun t _ => flushed_eq m c t) cover

/-! ## The reshape after the region -/

/-- A row `[1, n]` cast to a column `[n, 1]` reads, at `(p, u)`, the row at `(0, p)`. -/
theorem shapeCast_1n_n1_apply {α : Type} {n : ℕ} (x : (⟨2, ![1, n]⟩ : Shape).Idx → α) (h : (⟨2, ![1, n]⟩ : Shape).ShapeCasts ⟨2, ![n, 1]⟩)
    (p : Fin n) (u : Fin 1) : shapeCast ⟨2, ![n, 1]⟩ x h (ix2 p u) = x (ix2 (0 : Fin 1) p) :=
  shapeCast_apply x h _ _ (by
    have hu : u.val = 0 := by omega
    rw [Shape.rowMajor_val_two, Shape.rowMajor_val_two]
    show 0 * n + p.val = p.val * 1 + u.val
    rw [hu, Nat.zero_mul, Nat.zero_add, Nat.mul_one, Nat.add_zero])

/-- The program's result: the region's row cast to a column is `G` of the arguments. -/
theorem tail (c : Dev nD) : Pipeline.afterTail₀ cfgs (dats m) 0 (V0 m) [hostOps1] c main_v19
    = Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold Pipeline.afterTail₀
  show StableHlo.after hostOps1 _ (Proc.devRef .tc main_v19) = _
  after_results
  show shapeCast S2000000x1 (Pipeline.withArrays spec0 c (V0 m c) (fun w => (dats m 0 c).arrAt w cfg0.N) (Proc.devRef .tc main_v18)) shapeCasts_S1x2000000_S2000000x1 = _
  rw [show Pipeline.withArrays spec0 c (V0 m c) (fun w => (dats m 0 c).arrAt w cfg0.N) (Proc.devRef .tc main_v18) = rowOut m c from
    (Pipeline.withArrays_arr spec0 launch0.win.arr_inj c _ _ 18).trans (final m c)]
  funext i
  obtain ⟨n, u, rfl⟩ : ∃ (n : Fin 2000000) (u : Fin 1), i = ix2 n u := ⟨i 0, i 1, eq_ix2 i⟩
  obtain rfl : u = 0 := Subsingleton.elim _ _
  rw [shapeCast_1n_n1_apply]
  rfl

/-! ## The run, read -/

/-- Every execution of the idealized kernel ends with its result at `G` of the argument arrays and the arguments unchanged. -/
theorem run : θ_run defs (onTc (τ := τ) (main (F := Ideal))) ⟨m, fun _ => 0, ρ⟩ fun r => ∀ c : Dev nD,
      r.2.mem ((c.tc : Thread nD τ).loc main_v19) = Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => ⟨((h c).2 main_v19 (Pipeline.mem_restRefs_of main_v19 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c)⟩)
    (run_main m ρ)

end Cert.KernelIdeal.Region

end
-- ==== Proof.RefValue.lean ====
/-
  The reference program's result is the network `G` of the specification.

  The reference is read one layer at a time. A layer is five operations: a contraction of the previous layer's
  rows with the weight matrix, the bias (a vector) broadcast first to one row and then to every row, their sum, and the
  hyperbolic tangent. Read at row `n` and column `j` this is
      tanh (Σ_k h[n, k] · W[k, j] + b[j]),
  which is the dense layer of the specification applied to row `n` of the previous layer. The eighth layer ends
  with the operations negate, exponential, one plus, and one divided by, in place of the tangent: at an entry that
  is 1 / (1 + e^(-z)), the logistic function of the extended reals by its definition. The last operation multiplies
  by the scale, a vector of one entry broadcast to every row.

  Each layer lemma keeps the previous layer's array opaque; the lemmas `upto` then chain them, replacing the
  previous layer's row by the nested dense layers entry by entry.
-/
import proofs.«100927_j58763742544053_2_alg».proof.Proof.Gen.ReferenceIdeal.Read
import proofs.«100927_j58763742544053_2_alg».proof.Proof.Spec

namespace Cert.ReferenceIdeal.RefValue

open Cert.ReferenceIdeal Cert.ReferenceIdeal.Read Idealize.ShloMosaic Idealize.ShloMosaic.ValueIdx
open Cert.Mlp (dense dense_congr)

/-- The word of the constant in `1 / (1 + e^(-z))` denotes the number one. -/
theorem one_f32 : Ideal.ofBits .f32 0x3F800000#32 = 1 := by
  simp [Ideal.ofBits, Ideal.ieee, -EReal.coe_mul]; norm_num

section layers

variable (x0 : (⟨S2000000x2, .f32⟩ : BufTy).Contents (Elt Ideal))
  (x1 : (⟨S2x50, .f32⟩ : BufTy).Contents (Elt Ideal))
  (x2 : (⟨S50, .f32⟩ : BufTy).Contents (Elt Ideal))
  (x3 : (⟨S50x50, .f32⟩ : BufTy).Contents (Elt Ideal))
  (x4 : (⟨S50, .f32⟩ : BufTy).Contents (Elt Ideal))
  (x5 : (⟨S50x50, .f32⟩ : BufTy).Contents (Elt Ideal))
  (x6 : (⟨S50, .f32⟩ : BufTy).Contents (Elt Ideal))
  (x7 : (⟨S50x50, .f32⟩ : BufTy).Contents (Elt Ideal))
  (x8 : (⟨S50, .f32⟩ : BufTy).Contents (Elt Ideal))
  (x9 : (⟨S50x50, .f32⟩ : BufTy).Contents (Elt Ideal))
  (x10 : (⟨S50, .f32⟩ : BufTy).Contents (Elt Ideal))
  (x11 : (⟨S50x50, .f32⟩ : BufTy).Contents (Elt Ideal))
  (x12 : (⟨S50, .f32⟩ : BufTy).Contents (Elt Ideal))
  (x13 : (⟨S50x40, .f32⟩ : BufTy).Contents (Elt Ideal))
  (x14 : (⟨S40, .f32⟩ : BufTy).Contents (Elt Ideal))
  (x15 : (⟨S40x1, .f32⟩ : BufTy).Contents (Elt Ideal))
  (x16 : (⟨S1, .f32⟩ : BufTy).Contents (Elt Ideal))
  (x17 : (⟨S1, .f32⟩ : BufTy).Contents (Elt Ideal))

/-- Layer 1 at row `n`, column `j`: the dense layer of the input's row `n`. -/
theorem layer1 (n : Fin 2000000) (j : Fin 50) :
    val_main_v4 (F := Ideal) x0 x1 x2 (ix2 n j)
      = dense Ideal.tanh (fun (k : Fin 2) => x0 (ix2 n k))
          (fun (k : Fin 2) (j : Fin 50) => x1 (ix2 k j)) (fun (j : Fin 50) => x2 (ix1 j)) j := by
  rw [val_main_v4_apply, val_main_v3_apply, val_main_v0_apply, val_main_v2_apply, val_main_v1_apply]
  have el : ∀ k : Fin 2, lidx_main_v0 (ix2 n j) k = ix2 n k := fun k =>
    funext fun a => by match a with | ⟨0, _⟩ => rfl | ⟨1, _⟩ => rfl
  have er : ∀ k : Fin 2, ridx_main_v0 (ix2 n j) k = ix2 k j := fun k =>
    funext fun a => by match a with | ⟨0, _⟩ => rfl | ⟨1, _⟩ => rfl
  have eb : idx_main_v1 (idx_main_v2 (ix2 n j)) = ix1 j :=
    funext fun a => by match a with | ⟨0, _⟩ => rfl
  simp only [el, er, eb, Ideal.hostUnary_tanh_def, Ideal.addf_def]
  rfl

/-- Layer 2 at row `n`, column `j`: the dense layer of row `n` of layer 1. -/
theorem layer2 (n : Fin 2000000) (j : Fin 50) :
    val_main_v9 (F := Ideal) x0 x1 x2 x3 x4 (ix2 n j)
      = dense Ideal.tanh (fun (k : Fin 50) => val_main_v4 (F := Ideal) x0 x1 x2 (ix2 n k))
          (fun (k : Fin 50) (j : Fin 50) => x3 (ix2 k j)) (fun (j : Fin 50) => x4 (ix1 j)) j := by
  rw [val_main_v9_apply, val_main_v8_apply, val_main_v5_apply, val_main_v7_apply, val_main_v6_apply]
  have el : ∀ k : Fin 50, lidx_main_v5 (ix2 n j) k = ix2 n k := fun k =>
    funext fun a => by match a with | ⟨0, _⟩ => rfl | ⟨1, _⟩ => rfl
  have er : ∀ k : Fin 50, ridx_main_v5 (ix2 n j) k = ix2 k j := fun k =>
    funext fun a => by match a with | ⟨0, _⟩ => rfl | ⟨1, _⟩ => rfl
  have eb : idx_main_v6 (idx_main_v7 (ix2 n j)) = ix1 j :=
    funext fun a => by match a with | ⟨0, _⟩ => rfl
  simp only [el, er, eb, Ideal.hostUnary_tanh_def, Ideal.addf_def]
  rfl

/-- Layer 3 at row `n`, column `j`: the dense layer of row `n` of layer 2. -/
theorem layer3 (n : Fin 2000000) (j : Fin 50) :
    val_main_v14 (F := Ideal) x0 x1 x2 x3 x4 x5 x6 (ix2 n j)
      = dense Ideal.tanh (fun (k : Fin 50) => val_main_v9 (F := Ideal) x0 x1 x2 x3 x4 (ix2 n k))
          (fun (k : Fin 50) (j : Fin 50) => x5 (ix2 k j)) (fun (j : Fin 50) => x6 (ix1 j)) j := by
  rw [val_main_v14_apply, val_main_v13_apply, val_main_v10_apply, val_main_v12_apply, val_main_v11_apply]
  have el : ∀ k : Fin 50, lidx_main_v10 (ix2 n j) k = ix2 n k := fun k =>
    funext fun a => by match a with | ⟨0, _⟩ => rfl | ⟨1, _⟩ => rfl
  have er : ∀ k : Fin 50, ridx_main_v10 (ix2 n j) k = ix2 k j := fun k =>
    funext fun a => by match a with | ⟨0, _⟩ => rfl | ⟨1, _⟩ => rfl
  have eb : idx_main_v11 (idx_main_v12 (ix2 n j)) = ix1 j :=
    funext fun a => by match a with | ⟨0, _⟩ => rfl
  simp only [el, er, eb, Ideal.hostUnary_tanh_def, Ideal.addf_def]
  rfl

/-- Layer 4 at row `n`, column `j`: the dense layer of row `n` of layer 3. -/
theorem layer4 (n : Fin 2000000) (j : Fin 50) :
    val_main_v19 (F := Ideal) x0 x1 x2 x3 x4 x5 x6 x7 x8 (ix2 n j)
      = dense Ideal.tanh (fun (k : Fin 50) => val_main_v14 (F := Ideal) x0 x1 x2 x3 x4 x5 x6 (ix2 n k))
          (fun (k : Fin 50) (j : Fin 50) => x7 (ix2 k j)) (fun (j : Fin 50) => x8 (ix1 j)) j := by
  rw [val_main_v19_apply, val_main_v18_apply, val_main_v15_apply, val_main_v17_apply, val_main_v16_apply]
  have el : ∀ k : Fin 50, lidx_main_v15 (ix2 n j) k = ix2 n k := fun k =>
    funext fun a => by match a with | ⟨0, _⟩ => rfl | ⟨1, _⟩ => rfl
  have er : ∀ k : Fin 50, ridx_main_v15 (ix2 n j) k = ix2 k j := fun k =>
    funext fun a => by match a with | ⟨0, _⟩ => rfl | ⟨1, _⟩ => rfl
  have eb : idx_main_v16 (idx_main_v17 (ix2 n j)) = ix1 j :=
    funext fun a => by match a with | ⟨0, _⟩ => rfl
  simp only [el, er, eb, Ideal.hostUnary_tanh_def, Ideal.addf_def]
  rfl

/-- Layer 5 at row `n`, column `j`: the dense layer of row `n` of layer 4. -/
theorem layer5 (n : Fin 2000000) (j : Fin 50) :
    val_main_v24 (F := Ideal) x0 x1 x2 x3 x4 x5 x6 x7 x8 x9 x10 (ix2 n j)
      = dense Ideal.tanh (fun (k : Fin 50) => val_main_v19 (F := Ideal) x0 x1 x2 x3 x4 x5 x6 x7 x8 (ix2 n k))
          (fun (k : Fin 50) (j : Fin 50) => x9 (ix2 k j)) (fun (j : Fin 50) => x10 (ix1 j)) j := by
  rw [val_main_v24_apply, val_main_v23_apply, val_main_v20_apply, val_main_v22_apply, val_main_v21_apply]
  have el : ∀ k : Fin 50, lidx_main_v20 (ix2 n j) k = ix2 n k := fun k =>
    funext fun a => by match a with | ⟨0, _⟩ => rfl | ⟨1, _⟩ => rfl
  have er : ∀ k : Fin 50, ridx_main_v20 (ix2 n j) k = ix2 k j := fun k =>
    funext fun a => by match a with | ⟨0, _⟩ => rfl | ⟨1, _⟩ => rfl
  have eb : idx_main_v21 (idx_main_v22 (ix2 n j)) = ix1 j :=
    funext fun a => by match a with | ⟨0, _⟩ => rfl
  simp only [el, er, eb, Ideal.hostUnary_tanh_def, Ideal.addf_def]
  rfl

/-- Layer 6 at row `n`, column `j`: the dense layer of row `n` of layer 5. -/
theorem layer6 (n : Fin 2000000) (j : Fin 50) :
    val_main_v29 (F := Ideal) x0 x1 x2 x3 x4 x5 x6 x7 x8 x9 x10 x11 x12 (ix2 n j)
      = dense Ideal.tanh (fun (k : Fin 50) => val_main_v24 (F := Ideal) x0 x1 x2 x3 x4 x5 x6 x7 x8 x9 x10 (ix2 n k))
          (fun (k : Fin 50) (j : Fin 50) => x11 (ix2 k j)) (fun (j : Fin 50) => x12 (ix1 j)) j := by
  rw [val_main_v29_apply, val_main_v28_apply, val_main_v25_apply, val_main_v27_apply, val_main_v26_apply]
  have el : ∀ k : Fin 50, lidx_main_v25 (ix2 n j) k = ix2 n k := fun k =>
    funext fun a => by match a with | ⟨0, _⟩ => rfl | ⟨1, _⟩ => rfl
  have er : ∀ k : Fin 50, ridx_main_v25 (ix2 n j) k = ix2 k j := fun k =>
    funext fun a => by match a with | ⟨0, _⟩ => rfl | ⟨1, _⟩ => rfl
  have eb : idx_main_v26 (idx_main_v27 (ix2 n j)) = ix1 j :=
    funext fun a => by match a with | ⟨0, _⟩ => rfl
  simp only [el, er, eb, Ideal.hostUnary_tanh_def, Ideal.addf_def]
  rfl

/-- Layer 7 at row `n`, column `j`: the dense layer of row `n` of layer 6. -/
theorem layer7 (n : Fin 2000000) (j : Fin 40) :
    val_main_v34 (F := Ideal) x0 x1 x2 x3 x4 x5 x6 x7 x8 x9 x10 x11 x12 x13 x14 (ix2 n j)
      = dense Ideal.tanh (fun (k : Fin 50) => val_main_v29 (F := Ideal) x0 x1 x2 x3 x4 x5 x6 x7 x8 x9 x10 x11 x12 (ix2 n k))
          (fun (k : Fin 50) (j : Fin 40) => x13 (ix2 k j)) (fun (j : Fin 40) => x14 (ix1 j)) j := by
  rw [val_main_v34_apply, val_main_v33_apply, val_main_v30_apply, val_main_v32_apply, val_main_v31_apply]
  have el : ∀ k : Fin 50, lidx_main_v30 (ix2 n j) k = ix2 n k := fun k =>
    funext fun a => by match a with | ⟨0, _⟩ => rfl | ⟨1, _⟩ => rfl
  have er : ∀ k : Fin 50, ridx_main_v30 (ix2 n j) k = ix2 k j := fun k =>
    funext fun a => by match a with | ⟨0, _⟩ => rfl | ⟨1, _⟩ => rfl
  have eb : idx_main_v31 (idx_main_v32 (ix2 n j)) = ix1 j :=
    funext fun a => by match a with | ⟨0, _⟩ => rfl
  simp only [el, er, eb, Ideal.hostUnary_tanh_def, Ideal.addf_def]
  rfl

/-- Layer 8 at row `n`: one divided by one plus the exponential of minus the pre-activation is the logistic
    function, so this is the dense logistic layer of row `n` of layer 7. -/
theorem layer8 (n : Fin 2000000) :
    val_main_v44 (F := Ideal) x0 x1 x2 x3 x4 x5 x6 x7 x8 x9 x10 x11 x12 x13 x14 x15 x16 (ix2 n (0 : Fin 1))
      = dense Ideal.logistic (fun (k : Fin 40) => val_main_v34 (F := Ideal) x0 x1 x2 x3 x4 x5 x6 x7 x8 x9 x10 x11 x12 x13 x14 (ix2 n k))
          (fun (k : Fin 40) (j : Fin 1) => x15 (ix2 k j)) (fun (j : Fin 1) => x16 (ix1 j)) 0 := by
  rw [val_main_v44_apply, val_main_v43_apply, val_main_cst_0_apply, val_main_v42_apply, val_main_v41_apply,
    val_main_cst_apply, val_main_v40_apply, val_main_v39_apply, val_main_v38_apply, val_main_v35_apply,
    val_main_v37_apply, val_main_v36_apply]
  have el : ∀ k : Fin 40, lidx_main_v35 (ix2 n (0 : Fin 1)) k = ix2 n k := fun k =>
    funext fun a => by match a with | ⟨0, _⟩ => rfl | ⟨1, _⟩ => rfl
  have er : ∀ k : Fin 40, ridx_main_v35 (ix2 n (0 : Fin 1)) k = ix2 k (0 : Fin 1) := fun k =>
    funext fun a => by match a with | ⟨0, _⟩ => rfl | ⟨1, _⟩ => rfl
  have eb : idx_main_v36 (idx_main_v37 (ix2 n (0 : Fin 1))) = ix1 (0 : Fin 1) :=
    funext fun a => by match a with | ⟨0, _⟩ => rfl
  simp only [el, er, eb, Ideal.hostDivf_def, Ideal.addf_def, Ideal.hostUnary_exp_def, Ideal.hostNegf_def,
    Ideal.negf_def, Ideal.ofBits_def, one_f32]
  rfl

/-- Row `n` of layer 1 is the first 1 dense layer of the input's row `n`. -/
theorem upto1 (n : Fin 2000000) (j : Fin 50) :
    val_main_v4 (F := Ideal) x0 x1 x2 (ix2 n j)
      = (dense Ideal.tanh (fun (k : Fin 2) => x0 (ix2 n k))
      (fun (k : Fin 2) (j : Fin 50) => x1 (ix2 k j)) (fun (j : Fin 50) => x2 (ix1 j))) j :=
  layer1 x0 x1 x2 n j

/-- Row `n` of layer 2 is the first 2 dense layers of the input's row `n`. -/
theorem upto2 (n : Fin 2000000) (j : Fin 50) :
    val_main_v9 (F := Ideal) x0 x1 x2 x3 x4 (ix2 n j)
      = (dense Ideal.tanh (dense Ideal.tanh (fun (k : Fin 2) => x0 (ix2 n k))
      (fun (k : Fin 2) (j : Fin 50) => x1 (ix2 k j)) (fun (j : Fin 50) => x2 (ix1 j)))
      (fun (k : Fin 50) (j : Fin 50) => x3 (ix2 k j)) (fun (j : Fin 50) => x4 (ix1 j))) j :=
  (layer2 x0 x1 x2 x3 x4 n j).trans
    (dense_congr Ideal.tanh (fun k => upto1 x0 x1 x2 n k) (fun _ _ => rfl) (fun _ => rfl) j)

/-- Row `n` of layer 3 is the first 3 dense layers of the input's row `n`. -/
theorem upto3 (n : Fin 2000000) (j : Fin 50) :
    val_main_v14 (F := Ideal) x0 x1 x2 x3 x4 x5 x6 (ix2 n j)
      = (dense Ideal.tanh (dense Ideal.tanh (dense Ideal.tanh (fun (k : Fin 2) => x0 (ix2 n k))
      (fun (k : Fin 2) (j : Fin 50) => x1 (ix2 k j)) (fun (j : Fin 50) => x2 (ix1 j)))
      (fun (k : Fin 50) (j : Fin 50) => x3 (ix2 k j)) (fun (j : Fin 50) => x4 (ix1 j)))
      (fun (k : Fin 50) (j : Fin 50) => x5 (ix2 k j)) (fun (j : Fin 50) => x6 (ix1 j))) j :=
  (layer3 x0 x1 x2 x3 x4 x5 x6 n j).trans
    (dense_congr Ideal.tanh (fun k => upto2 x0 x1 x2 x3 x4 n k) (fun _ _ => rfl) (fun _ => rfl) j)

/-- Row `n` of layer 4 is the first 4 dense layers of the input's row `n`. -/
theorem upto4 (n : Fin 2000000) (j : Fin 50) :
    val_main_v19 (F := Ideal) x0 x1 x2 x3 x4 x5 x6 x7 x8 (ix2 n j)
      = (dense Ideal.tanh (dense Ideal.tanh (dense Ideal.tanh (dense Ideal.tanh (fun (k : Fin 2) => x0 (ix2 n k))
      (fun (k : Fin 2) (j : Fin 50) => x1 (ix2 k j)) (fun (j : Fin 50) => x2 (ix1 j)))
      (fun (k : Fin 50) (j : Fin 50) => x3 (ix2 k j)) (fun (j : Fin 50) => x4 (ix1 j)))
      (fun (k : Fin 50) (j : Fin 50) => x5 (ix2 k j)) (fun (j : Fin 50) => x6 (ix1 j)))
      (fun (k : Fin 50) (j : Fin 50) => x7 (ix2 k j)) (fun (j : Fin 50) => x8 (ix1 j))) j :=
  (layer4 x0 x1 x2 x3 x4 x5 x6 x7 x8 n j).trans
    (dense_congr Ideal.tanh (fun k => upto3 x0 x1 x2 x3 x4 x5 x6 n k) (fun _ _ => rfl) (fun _ => rfl) j)

/-- Row `n` of layer 5 is the first 5 dense layers of the input's row `n`. -/
theorem upto5 (n : Fin 2000000) (j : Fin 50) :
    val_main_v24 (F := Ideal) x0 x1 x2 x3 x4 x5 x6 x7 x8 x9 x10 (ix2 n j)
      = (dense Ideal.tanh (dense Ideal.tanh (dense Ideal.tanh (dense Ideal.tanh (dense Ideal.tanh (fun (k : Fin 2) => x0 (ix2 n k))
      (fun (k : Fin 2) (j : Fin 50) => x1 (ix2 k j)) (fun (j : Fin 50) => x2 (ix1 j)))
      (fun (k : Fin 50) (j : Fin 50) => x3 (ix2 k j)) (fun (j : Fin 50) => x4 (ix1 j)))
      (fun (k : Fin 50) (j : Fin 50) => x5 (ix2 k j)) (fun (j : Fin 50) => x6 (ix1 j)))
      (fun (k : Fin 50) (j : Fin 50) => x7 (ix2 k j)) (fun (j : Fin 50) => x8 (ix1 j)))
      (fun (k : Fin 50) (j : Fin 50) => x9 (ix2 k j)) (fun (j : Fin 50) => x10 (ix1 j))) j :=
  (layer5 x0 x1 x2 x3 x4 x5 x6 x7 x8 x9 x10 n j).trans
    (dense_congr Ideal.tanh (fun k => upto4 x0 x1 x2 x3 x4 x5 x6 x7 x8 n k) (fun _ _ => rfl) (fun _ => rfl) j)

/-- Row `n` of layer 6 is the first 6 dense layers of the input's row `n`. -/
theorem upto6 (n : Fin 2000000) (j : Fin 50) :
    val_main_v29 (F := Ideal) x0 x1 x2 x3 x4 x5 x6 x7 x8 x9 x10 x11 x12 (ix2 n j)
      = (dense Ideal.tanh (dense Ideal.tanh (dense Ideal.tanh (dense Ideal.tanh (dense Ideal.tanh (dense Ideal.tanh (fun (k : Fin 2) => x0 (ix2 n k))
      (fun (k : Fin 2) (j : Fin 50) => x1 (ix2 k j)) (fun (j : Fin 50) => x2 (ix1 j)))
      (fun (k : Fin 50) (j : Fin 50) => x3 (ix2 k j)) (fun (j : Fin 50) => x4 (ix1 j)))
      (fun (k : Fin 50) (j : Fin 50) => x5 (ix2 k j)) (fun (j : Fin 50) => x6 (ix1 j)))
      (fun (k : Fin 50) (j : Fin 50) => x7 (ix2 k j)) (fun (j : Fin 50) => x8 (ix1 j)))
      (fun (k : Fin 50) (j : Fin 50) => x9 (ix2 k j)) (fun (j : Fin 50) => x10 (ix1 j)))
      (fun (k : Fin 50) (j : Fin 50) => x11 (ix2 k j)) (fun (j : Fin 50) => x12 (ix1 j))) j :=
  (layer6 x0 x1 x2 x3 x4 x5 x6 x7 x8 x9 x10 x11 x12 n j).trans
    (dense_congr Ideal.tanh (fun k => upto5 x0 x1 x2 x3 x4 x5 x6 x7 x8 x9 x10 n k) (fun _ _ => rfl) (fun _ => rfl) j)

/-- Row `n` of layer 7 is the first 7 dense layers of the input's row `n`. -/
theorem upto7 (n : Fin 2000000) (j : Fin 40) :
    val_main_v34 (F := Ideal) x0 x1 x2 x3 x4 x5 x6 x7 x8 x9 x10 x11 x12 x13 x14 (ix2 n j)
      = (dense Ideal.tanh (dense Ideal.tanh (dense Ideal.tanh (dense Ideal.tanh (dense Ideal.tanh (dense Ideal.tanh (dense Ideal.tanh (fun (k : Fin 2) => x0 (ix2 n k))
      (fun (k : Fin 2) (j : Fin 50) => x1 (ix2 k j)) (fun (j : Fin 50) => x2 (ix1 j)))
      (fun (k : Fin 50) (j : Fin 50) => x3 (ix2 k j)) (fun (j : Fin 50) => x4 (ix1 j)))
      (fun (k : Fin 50) (j : Fin 50) => x5 (ix2 k j)) (fun (j : Fin 50) => x6 (ix1 j)))
      (fun (k : Fin 50) (j : Fin 50) => x7 (ix2 k j)) (fun (j : Fin 50) => x8 (ix1 j)))
      (fun (k : Fin 50) (j : Fin 50) => x9 (ix2 k j)) (fun (j : Fin 50) => x10 (ix1 j)))
      (fun (k : Fin 50) (j : Fin 50) => x11 (ix2 k j)) (fun (j : Fin 50) => x12 (ix1 j)))
      (fun (k : Fin 50) (j : Fin 40) => x13 (ix2 k j)) (fun (j : Fin 40) => x14 (ix1 j))) j :=
  (layer7 x0 x1 x2 x3 x4 x5 x6 x7 x8 x9 x10 x11 x12 x13 x14 n j).trans
    (dense_congr Ideal.tanh (fun k => upto6 x0 x1 x2 x3 x4 x5 x6 x7 x8 x9 x10 x11 x12 n k) (fun _ _ => rfl) (fun _ => rfl) j)

end layers

/-- The reference's result, entry by entry, is the network of the specification: the eight layers above on the
    input's row, times the scale. -/
theorem ref_eq (x0 : (⟨S2000000x2, .f32⟩ : BufTy).Contents (Elt Ideal)) (x1 : (⟨S2x50, .f32⟩ : BufTy).Contents (Elt Ideal)) (x2 : (⟨S50, .f32⟩ : BufTy).Contents (Elt Ideal)) (x3 : (⟨S50x50, .f32⟩ : BufTy).Contents (Elt Ideal)) (x4 : (⟨S50, .f32⟩ : BufTy).Contents (Elt Ideal)) (x5 : (⟨S50x50, .f32⟩ : BufTy).Contents (Elt Ideal)) (x6 : (⟨S50, .f32⟩ : BufTy).Contents (Elt Ideal)) (x7 : (⟨S50x50, .f32⟩ : BufTy).Contents (Elt Ideal)) (x8 : (⟨S50, .f32⟩ : BufTy).Contents (Elt Ideal)) (x9 : (⟨S50x50, .f32⟩ : BufTy).Contents (Elt Ideal)) (x10 : (⟨S50, .f32⟩ : BufTy).Contents (Elt Ideal)) (x11 : (⟨S50x50, .f32⟩ : BufTy).Contents (Elt Ideal)) (x12 : (⟨S50, .f32⟩ : BufTy).Contents (Elt Ideal)) (x13 : (⟨S50x40, .f32⟩ : BufTy).Contents (Elt Ideal)) (x14 : (⟨S40, .f32⟩ : BufTy).Contents (Elt Ideal)) (x15 : (⟨S40x1, .f32⟩ : BufTy).Contents (Elt Ideal)) (x16 x17 : (⟨S1, .f32⟩ : BufTy).Contents (Elt Ideal)) :
    val_main_v47 (F := Ideal) x0 x1 x2 x3 x4 x5 x6 x7 x8 x9 x10 x11 x12 x13 x14 x15 x16 x17
      = Cert.Mlp.G x0 x1 x2 x3 x4 x5 x6 x7 x8 x9 x10 x11 x12 x13 x14 x15 x16 x17 := by
  funext i
  obtain ⟨n, u, rfl⟩ : ∃ (n : Fin 2000000) (u : Fin 1), i = ix2 n u := ⟨i 0, i 1, eq_ix2 i⟩
  obtain rfl : u = 0 := Subsingleton.elim u 0
  rw [val_main_v47_apply, val_main_v46_apply, val_main_v45_apply, layer8,
    dense_congr Ideal.logistic (fun k => upto7 x0 x1 x2 x3 x4 x5 x6 x7 x8 x9 x10 x11 x12 x13 x14 n k) (fun _ _ => rfl) (fun _ => rfl) 0]
  have es : idx_main_v45 (idx_main_v46 (ix2 n (0 : Fin 1))) = ix1 (0 : Fin 1) :=
    funext fun a => by match a with | ⟨0, _⟩ => rfl
  rw [es, Ideal.mulf_def]
  rfl

end Cert.ReferenceIdeal.RefValue
-- ==== Proof.lean ====
/-
  An eight-layer perceptron on two million rows: h₀ = x, h_l = tanh (h_{l-1} · W_l + b_l) for l = 1 … 7, and
  y = scale · logistic (h₇ · W₈ + b₈). The kernel computes it transposed, features along the rows and sixteen thousand
  input rows per grid point along the columns, z = W_lᵀ · h + b_l with the bias a column; the reference computes it row
  by row. On the extended reals a change of float format is the identity, a matrix product into a zero accumulator and
  the host's product are both the plain sum over the contracted axis, and the kernel's logistic and the reference's
  1 / (1 + exp (−z)) are one function; the two sides then differ only in the order of the two factors of each product,
  and multiplication is commutative. No finiteness of the inputs is used.

  `Cert.Mlp.G` (Proof/Spec.lean) is the result array as one function of the eighteen argument arrays. The kernel's run
  ends with its result at `G` (Proof/Region.lean, over the body's arithmetic at one column, Proof/Payload.lean); the
  reference's run ends with its result at `G` (Proof/RefValue.lean). The three frames are the programs' runs with the
  result forgotten; the idealization rewrote nothing, so `preserves` has nothing to state.
-/
import proofs.«100927_j58763742544053_2_alg».proof.Defs
import proofs.«100927_j58763742544053_2_alg».proof.Proof.Gen.Kernel
import proofs.«100927_j58763742544053_2_alg».proof.Proof.Gen.Kernel.Skeleton
import proofs.«100927_j58763742544053_2_alg».proof.Proof.Gen.Kernel.Launch
import proofs.«100927_j58763742544053_2_alg».proof.Proof.Gen.Kernel.Points
import proofs.«100927_j58763742544053_2_alg».proof.Proof.Gen.Kernel.Frame
import proofs.«100927_j58763742544053_2_alg».proof.Proof.Gen.KernelIdeal
import proofs.«100927_j58763742544053_2_alg».proof.Proof.Gen.KernelIdeal.Skeleton
import proofs.«100927_j58763742544053_2_alg».proof.Proof.Gen.KernelIdeal.Launch
import proofs.«100927_j58763742544053_2_alg».proof.Proof.Gen.KernelIdeal.Points
import proofs.«100927_j58763742544053_2_alg».proof.Proof.Gen.KernelIdeal.Frame
import proofs.«100927_j58763742544053_2_alg».proof.Proof.Gen.ReferenceIdeal
import proofs.«100927_j58763742544053_2_alg».proof.Proof.Gen.ReferenceIdeal.Run
import proofs.«100927_j58763742544053_2_alg».proof.Proof.Gen.ReferenceIdeal.Read
import proofs.«100927_j58763742544053_2_alg».proof.Proof.Gen.Pre_finite_inputs
import proofs.«100927_j58763742544053_2_alg».proof.Proof.Spec
import proofs.«100927_j58763742544053_2_alg».proof.Proof.Region
import proofs.«100927_j58763742544053_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at `G` of the argument arrays, and the two memories agree on those. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17⟩ := hagree c
  rw [Cert.ReferenceIdeal.Read.val_main_v47_eq, Cert.ReferenceIdeal.RefValue.ref_eq,
    a0, a1, a2, a3, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
